-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x640000 32) (main_arg2 : IVec S100000 32) (main_arg3 : FVec F S128x128 .f32) (main_arg4 : FVec F S128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S512x128 : Shape := ⟨2, ![512, 128]⟩
abbrev S100000x1 : Shape := ⟨2, ![100000, 1]⟩
abbrev S10000x128 : Shape := ⟨2, ![10000, 128]⟩

abbrev nBuf : Space → Nat
  | .hbm => 104
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S740000, .i32⟩
  | .hbm, ⟨29, _⟩ => ⟨S740000, .i1⟩
  | .hbm, ⟨30, _⟩ => ⟨S_, .i32⟩
  | .hbm, ⟨31, _⟩ => ⟨S740000, .i32⟩
  | .hbm, ⟨32, _⟩ => ⟨S740000, .i32⟩
  | .hbm, ⟨33, _⟩ => ⟨S740000, .i32⟩
  | .hbm, ⟨34, _⟩ => ⟨S740000x1, .i32⟩
  | .hbm, ⟨35, _⟩ => ⟨S740000, .f32⟩
  | .hbm, ⟨36, _⟩ => ⟨S_, .i32⟩
  | .hbm, ⟨37, _⟩ => ⟨S740000, .i32⟩
  | .hbm, ⟨38, _⟩ => ⟨S740000, .i1⟩
  | .hbm, ⟨39, _⟩ => ⟨S_, .i32⟩
  | .hbm, ⟨40, _⟩ => ⟨S740000, .i32⟩
  | .hbm, ⟨41, _⟩ => ⟨S740000, .i32⟩
  | .hbm, ⟨42, _⟩ => ⟨S740000, .i32⟩
  | .hbm, ⟨43, _⟩ => ⟨S740000x1, .i32⟩
  | .hbm, ⟨44, _⟩ => ⟨S740000, .f32⟩
  | .hbm, ⟨45, _⟩ => ⟨S740000, .f32⟩
  | .hbm, ⟨46, _⟩ => ⟨S100000x128, .bf16⟩
  | .hbm, ⟨47, _⟩ => ⟨S740000x1, .f32⟩
  | .hbm, ⟨48, _⟩ => ⟨S_, .i32⟩
  | .hbm, ⟨49, _⟩ => ⟨S740000, .i32⟩
  | .hbm, ⟨50, _⟩ => ⟨S740000, .i1⟩
  | .hbm, ⟨51, _⟩ => ⟨S_, .i32⟩
  | .hbm, ⟨52, _⟩ => ⟨S740000, .i32⟩
  | .hbm, ⟨53, _⟩ => ⟨S740000, .i32⟩
  | .hbm, ⟨54, _⟩ => ⟨S740000, .i32⟩
  | .hbm, ⟨55, _⟩ => ⟨S740000x1, .i32⟩
  | .hbm, ⟨56, _⟩ => ⟨S740000x128, .bf16⟩
  | .hbm, ⟨57, _⟩ => ⟨S740000x128, .f32⟩
  | .hbm, ⟨58, _⟩ => ⟨S740000x128, .f32⟩
  | .hbm, ⟨59, _⟩ => ⟨S740000x128, .f32⟩
  | .hbm, ⟨60, _⟩ => ⟨S_, .f32⟩
  | .hbm, ⟨61, _⟩ => ⟨S100000x128, .f32⟩
  | .hbm, ⟨62, _⟩ => ⟨S740000x1, .i32⟩
  | .hbm, ⟨63, _⟩ => ⟨S100000x128, .f32⟩
  | .hbm, ⟨64, _⟩ => ⟨S100000x128, .bf16⟩
  | .hbm, ⟨65, _⟩ => ⟨S740000x1, .f32⟩
  | .hbm, ⟨66, _⟩ => ⟨S_, .i32⟩
  | .hbm, ⟨67, _⟩ => ⟨S740000, .i32⟩
  | .hbm, ⟨68, _⟩ => ⟨S740000, .i1⟩
  | .hbm, ⟨69, _⟩ => ⟨S_, .i32⟩
  | .hbm, ⟨70, _⟩ => ⟨S740000, .i32⟩
  | .hbm, ⟨71, _⟩ => ⟨S740000, .i32⟩
  | .hbm, ⟨72, _⟩ => ⟨S740000, .i32⟩
  | .hbm, ⟨73, _⟩ => ⟨S740000x1, .i32⟩
  | .hbm, ⟨74, _⟩ => ⟨S740000x128, .bf16⟩
  | .hbm, ⟨75, _⟩ => ⟨S740000x128, .f32⟩
  | .hbm, ⟨76, _⟩ => ⟨S740000x128, .f32⟩
  | .hbm, ⟨77, _⟩ => ⟨S740000x128, .f32⟩
  | .hbm, ⟨78, _⟩ => ⟨S_, .f32⟩
  | .hbm, ⟨79, _⟩ => ⟨S100000x128, .f32⟩
  | .hbm, ⟨80, _⟩ => ⟨S740000x1, .i32⟩
  | .hbm, ⟨81, _⟩ => ⟨S100000x128, .f32⟩
  | .hbm, ⟨82, _⟩ => ⟨S100000x128, .bf16⟩
  | .hbm, ⟨83, _⟩ => ⟨S740000x1, .f32⟩
  | .hbm, ⟨84, _⟩ => ⟨S_, .i32⟩
  | .hbm, ⟨85, _⟩ => ⟨S740000, .i32⟩
  | .hbm, ⟨86, _⟩ => ⟨S740000, .i1⟩
  | .hbm, ⟨87, _⟩ => ⟨S_, .i32⟩
  | .hbm, ⟨88, _⟩ => ⟨S740000, .i32⟩
  | .hbm, ⟨89, _⟩ => ⟨S740000, .i32⟩
  | .hbm, ⟨90, _⟩ => ⟨S740000, .i32⟩
  | .hbm, ⟨91, _⟩ => ⟨S740000x1, .i32⟩
  | .hbm, ⟨92, _⟩ => ⟨S740000x128, .bf16⟩
  | .hbm, ⟨93, _⟩ => ⟨S740000x128, .f32⟩
  | .hbm, ⟨94, _⟩ => ⟨S740000x128, .f32⟩
  | .hbm, ⟨95, _⟩ => ⟨S740000x128, .f32⟩
  | .hbm, ⟨96, _⟩ => ⟨S_, .f32⟩
  | .hbm, ⟨97, _⟩ => ⟨S100000x128, .f32⟩
  | .hbm, ⟨98, _⟩ => ⟨S740000x1, .i32⟩
  | .hbm, ⟨99, _⟩ => ⟨S100000x128, .f32⟩
  | .hbm, ⟨100, _⟩ => ⟨S_, .f32⟩
  | .hbm, ⟨101, _⟩ => ⟨S512x128, .f32⟩
  | .hbm, ⟨102, _⟩ => ⟨S100000x1, .i32⟩
  | .hbm, ⟨103, _⟩ => ⟨S512x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .bf16⟩
  | .local _ .vmem, ⟨9, _⟩ => ⟨S10000x128, .bf16⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .bf16⟩
  | .local _ .vmem, ⟨14, _⟩ => ⟨S10000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_c : Ref sig .tc := ⟨.hbm, 27, rfl⟩
abbrev main_call0_v15 : Ref sig .tc := ⟨.hbm, 28, rfl⟩
abbrev main_call0_v16 : Ref sig .tc := ⟨.hbm, 29, rfl⟩
abbrev main_call0_c_3 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_c_4 : Ref sig .tc := ⟨.hbm, 36, rfl⟩
abbrev main_call0_v22 : Ref sig .tc := ⟨.hbm, 37, rfl⟩
abbrev main_call0_v23 : Ref sig .tc := ⟨.hbm, 38, rfl⟩
abbrev main_call0_c_5 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_c_6 : Ref sig .tc := ⟨.hbm, 48, rfl⟩
abbrev main_call0_v32 : Ref sig .tc := ⟨.hbm, 49, rfl⟩
abbrev main_call0_v33 : Ref sig .tc := ⟨.hbm, 50, rfl⟩
abbrev main_call0_c_7 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_cst_8 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_v45 : Ref sig .tc := ⟨.hbm, 64, rfl⟩
abbrev main_call0_v46 : Ref sig .tc := ⟨.hbm, 65, rfl⟩
abbrev main_call0_c_9 : Ref sig .tc := ⟨.hbm, 66, rfl⟩
abbrev main_call0_v47 : Ref sig .tc := ⟨.hbm, 67, rfl⟩
abbrev main_call0_v48 : Ref sig .tc := ⟨.hbm, 68, rfl⟩
abbrev main_call0_c_10 : Ref sig .tc := ⟨.hbm, 69, rfl⟩
abbrev main_call0_v49 : Ref sig .tc := ⟨.hbm, 70, rfl⟩
abbrev main_call0_v50 : Ref sig .tc := ⟨.hbm, 71, rfl⟩
abbrev main_call0_v51 : Ref sig .tc := ⟨.hbm, 72, rfl⟩
abbrev main_call0_v52 : Ref sig .tc := ⟨.hbm, 73, rfl⟩
abbrev main_call0_v53 : Ref sig .tc := ⟨.hbm, 74, rfl⟩
abbrev main_call0_v54 : Ref sig .tc := ⟨.hbm, 75, rfl⟩
abbrev main_call0_v55 : Ref sig .tc := ⟨.hbm, 76, rfl⟩
abbrev main_call0_v56 : Ref sig .tc := ⟨.hbm, 77, rfl⟩
abbrev main_call0_cst_11 : Ref sig .tc := ⟨.hbm, 78, rfl⟩
abbrev main_call0_v57 : Ref sig .tc := ⟨.hbm, 79, rfl⟩
abbrev main_call0_v58 : Ref sig .tc := ⟨.hbm, 80, rfl⟩
abbrev main_call0_v59 : Ref sig .tc := ⟨.hbm, 81, rfl⟩
abbrev main_call0_v60 : Ref sig .tc := ⟨.hbm, 82, rfl⟩
abbrev main_call0_v61 : Ref sig .tc := ⟨.hbm, 83, rfl⟩
abbrev main_call0_c_12 : Ref sig .tc := ⟨.hbm, 84, rfl⟩
abbrev main_call0_v62 : Ref sig .tc := ⟨.hbm, 85, rfl⟩
abbrev main_call0_v63 : Ref sig .tc := ⟨.hbm, 86, rfl⟩
abbrev main_call0_c_13 : Ref sig .tc := ⟨.hbm, 87, rfl⟩
abbrev main_call0_v64 : Ref sig .tc := ⟨.hbm, 88, rfl⟩
abbrev main_call0_v65 : Ref sig .tc := ⟨.hbm, 89, rfl⟩
abbrev main_call0_v66 : Ref sig .tc := ⟨.hbm, 90, rfl⟩
abbrev main_call0_v67 : Ref sig .tc := ⟨.hbm, 91, rfl⟩
abbrev main_call0_v68 : Ref sig .tc := ⟨.hbm, 92, rfl⟩
abbrev main_call0_v69 : Ref sig .tc := ⟨.hbm, 93, rfl⟩
abbrev main_call0_v70 : Ref sig .tc := ⟨.hbm, 94, rfl⟩
abbrev main_call0_v71 : Ref sig .tc := ⟨.hbm, 95, rfl⟩
abbrev main_call0_cst_14 : Ref sig .tc := ⟨.hbm, 96, rfl⟩
abbrev main_call0_v72 : Ref sig .tc := ⟨.hbm, 97, rfl⟩
abbrev main_call0_v73 : Ref sig .tc := ⟨.hbm, 98, rfl⟩
abbrev main_call0_v74 : Ref sig .tc := ⟨.hbm, 99, rfl⟩
abbrev main_call0_cst_15 : Ref sig .tc := ⟨.hbm, 100, rfl⟩
abbrev main_call0_v75 : Ref sig .tc := ⟨.hbm, 101, rfl⟩
abbrev main_call0_v76 : Ref sig .tc := ⟨.hbm, 102, rfl⟩
abbrev main_v0 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bitsLt_bf16_f32 : FTy.bits .bf16 < FTy.bits .f32
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  shapeCasts_S10000x128_S10000x128 : S10000x128.ShapeCasts S10000x128
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S512x128_S100000x1_S100000x128_1_0_0_1_wf : ScatterDims.WF S512x128 S100000x1 S100000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .bf16 = 32 ∨ (Rect.block (s := S100000x128) S10000x128.size (cc2_transform_2 i) (hinb2_2 i)).WholeWords (EltTy.packing .bf16)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v59) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v60) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S512x128 : Shape := ⟨2, ![512, 128]⟩
abbrev S100000x1 : Shape := ⟨2, ![100000, 1]⟩

abbrev nBuf : Space → Nat
  | .hbm => 175
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x128, .f32⟩
  | 4 => ⟨S128x128, .f32⟩
  | 5 => ⟨S128x128, .f32⟩
  | 6 => ⟨S100000, .i32⟩
  | 7 => ⟨S1x640000, .i32⟩
  | 8 => ⟨S640000, .i32⟩
  | 9 => ⟨S740000, .i32⟩
  | 10 => ⟨S1x640000, .i32⟩
  | 11 => ⟨S640000, .i32⟩
  | 12 => ⟨S740000, .i32⟩
  | 13 => ⟨S100000x128, .f32⟩
  | 14 => ⟨S_, .f32⟩
  | 15 => ⟨S740000, .f32⟩
  | 16 => ⟨S_, .f32⟩
  | 17 => ⟨S100000, .f32⟩
  | 18 => ⟨S740000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S740000, .i32⟩
  | 30 => ⟨S740000, .i1⟩
  | 31 => ⟨S_, .i32⟩
  | 32 => ⟨S740000, .i32⟩
  | 33 => ⟨S740000, .i32⟩
  | 34 => ⟨S740000, .i32⟩
  | 35 => ⟨S740000x1, .i32⟩
  | 36 => ⟨S740000, .f32⟩
  | 37 => ⟨S_, .i32⟩
  | 38 => ⟨S740000, .i32⟩
  | 39 => ⟨S740000, .i1⟩
  | 40 => ⟨S_, .i32⟩
  | 41 => ⟨S740000, .i32⟩
  | 42 => ⟨S740000, .i32⟩
  | 43 => ⟨S740000, .i32⟩
  | 44 => ⟨S740000x1, .i32⟩
  | 45 => ⟨S740000, .f32⟩
  | 46 => ⟨S740000, .f32⟩
  | 47 => ⟨S740000x1, .f32⟩
  | 48 => ⟨S_, .i32⟩
  | 49 => ⟨S740000, .i32⟩
  | 50 => ⟨S740000, .i1⟩
  | 51 => ⟨S_, .i32⟩
  | 52 => ⟨S740000, .i32⟩
  | 53 => ⟨S740000, .i32⟩
  | 54 => ⟨S740000, .i32⟩
  | 55 => ⟨S740000x1, .i32⟩
  | 56 => ⟨S740000x128, .f32⟩
  | 57 => ⟨S740000x128, .f32⟩
  | 58 => ⟨S740000x128, .f32⟩
  | 59 => ⟨S_, .f32⟩
  | 60 => ⟨S100000x128, .f32⟩
  | 61 => ⟨S740000x1, .i32⟩
  | 62 => ⟨S100000x128, .f32⟩
  | 63 => ⟨S100000x128, .f32⟩
  | 64 => ⟨S_, .f32⟩
  | 65 => ⟨S740000, .f32⟩
  | 66 => ⟨S_, .f32⟩
  | 67 => ⟨S100000, .f32⟩
  | 68 => ⟨S740000x1, .i32⟩
  | 69 => ⟨S100000, .f32⟩
  | 70 => ⟨S_, .f32⟩
  | 71 => ⟨S100000, .f32⟩
  | 72 => ⟨S100000, .i1⟩
  | 73 => ⟨S100000, .f32⟩
  | 74 => ⟨S_, .f32⟩
  | 75 => ⟨S_, .f32⟩
  | 76 => ⟨S100000, .f32⟩
  | 77 => ⟨S100000, .f32⟩
  | 78 => ⟨S_, .i32⟩
  | 79 => ⟨S740000, .i32⟩
  | 80 => ⟨S740000, .i1⟩
  | 81 => ⟨S_, .i32⟩
  | 82 => ⟨S740000, .i32⟩
  | 83 => ⟨S740000, .i32⟩
  | 84 => ⟨S740000, .i32⟩
  | 85 => ⟨S740000x1, .i32⟩
  | 86 => ⟨S740000, .f32⟩
  | 87 => ⟨S_, .i32⟩
  | 88 => ⟨S740000, .i32⟩
  | 89 => ⟨S740000, .i1⟩
  | 90 => ⟨S_, .i32⟩
  | 91 => ⟨S740000, .i32⟩
  | 92 => ⟨S740000, .i32⟩
  | 93 => ⟨S740000, .i32⟩
  | 94 => ⟨S740000x1, .i32⟩
  | 95 => ⟨S740000, .f32⟩
  | 96 => ⟨S740000, .f32⟩
  | 97 => ⟨S740000x1, .f32⟩
  | 98 => ⟨S_, .i32⟩
  | 99 => ⟨S740000, .i32⟩
  | 100 => ⟨S740000, .i1⟩
  | 101 => ⟨S_, .i32⟩
  | 102 => ⟨S740000, .i32⟩
  | 103 => ⟨S740000, .i32⟩
  | 104 => ⟨S740000, .i32⟩
  | 105 => ⟨S740000x1, .i32⟩
  | 106 => ⟨S740000x128, .f32⟩
  | 107 => ⟨S740000x128, .f32⟩
  | 108 => ⟨S740000x128, .f32⟩
  | 109 => ⟨S_, .f32⟩
  | 110 => ⟨S100000x128, .f32⟩
  | 111 => ⟨S740000x1, .i32⟩
  | 112 => ⟨S100000x128, .f32⟩
  | 113 => ⟨S_, .f32⟩
  | 114 => ⟨S_, .f32⟩
  | 115 => ⟨S100000x128, .f32⟩
  | 116 => ⟨S100000x128, .i1⟩
  | 117 => ⟨S_, .f32⟩
  | 118 => ⟨S100000x128, .f32⟩
  | 119 => ⟨S100000x128, .f32⟩
  | 120 => ⟨S100000x128, .f32⟩
  | 121 => ⟨S100000x128, .f32⟩
  | 122 => ⟨S_, .f32⟩
  | 123 => ⟨S740000, .f32⟩
  | 124 => ⟨S_, .f32⟩
  | 125 => ⟨S100000, .f32⟩
  | 126 => ⟨S740000x1, .i32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .i1⟩
  | 3 => ⟨S100000, .f32⟩
  | 4 => ⟨S_, .f32⟩
  | 5 => ⟨S_, .f32⟩
  | 6 => ⟨S100000, .f32⟩
  | 7 => ⟨S100000, .f32⟩
  | 8 => ⟨S_, .i32⟩
  | 9 => ⟨S740000, .i32⟩
  | 10 => ⟨S740000, .i1⟩
  | 11 => ⟨S_, .i32⟩
  | 12 => ⟨S740000, .i32⟩
  | 13 => ⟨S740000, .i32⟩
  | 14 => ⟨S740000, .i32⟩
  | 15 => ⟨S740000x1, .i32⟩
  | 16 => ⟨S740000, .f32⟩
  | 17 => ⟨S_, .i32⟩
  | 18 => ⟨S740000, .i32⟩
  | 19 => ⟨S740000, .i1⟩
  | 20 => ⟨S_, .i32⟩
  | 21 => ⟨S740000, .i32⟩
  | 22 => ⟨S740000, .i32⟩
  | 23 => ⟨S740000, .i32⟩
  | 24 => ⟨S740000x1, .i32⟩
  | 25 => ⟨S740000, .f32⟩
  | 26 => ⟨S740000, .f32⟩
  | 27 => ⟨S740000x1, .f32⟩
  | 28 => ⟨S_, .i32⟩
  | 29 => ⟨S740000, .i32⟩
  | 30 => ⟨S740000, .i1⟩
  | 31 => ⟨S_, .i32⟩
  | 32 => ⟨S740000, .i32⟩
  | 33 => ⟨S740000, .i32⟩
  | 34 => ⟨S740000, .i32⟩
  | 35 => ⟨S740000x1, .i32⟩
  | 36 => ⟨S740000x128, .f32⟩
  | 37 => ⟨S740000x128, .f32⟩
  | 38 => ⟨S740000x128, .f32⟩
  | 39 => ⟨S_, .f32⟩
  | 40 => ⟨S100000x128, .f32⟩
  | 41 => ⟨S740000x1, .i32⟩
  | 42 => ⟨S100000x128, .f32⟩
  | 43 => ⟨S_, .f32⟩
  | 44 => ⟨S512x128, .f32⟩
  | 45 => ⟨S100000x1, .i32⟩
  | 46 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_call1_v0 : Ref sig .tc := ⟨.hbm, 75, rfl⟩
abbrev main_call1_v1 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_20 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_v81 : Ref sig .tc := ⟨.hbm, 120, rfl⟩
abbrev main_v82 : Ref sig .tc := ⟨.hbm, 121, rfl⟩
abbrev main_cst_21 : Ref sig .tc := ⟨.hbm, 122, rfl⟩
abbrev main_v83 : Ref sig .tc := ⟨.hbm, 123, rfl⟩
abbrev main_cst_22 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_23 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_24 : Ref sig .tc := ⟨.hbm, 132, rfl⟩
abbrev main_call3_v0 : Ref sig .tc := ⟨.hbm, 133, rfl⟩
abbrev main_call3_v1 : Ref sig .tc := ⟨.hbm, 134, rfl⟩
abbrev main_v90 : Ref sig .tc := ⟨.hbm, 135, rfl⟩
abbrev main_c_25 : Ref sig .tc := ⟨.hbm, 136, rfl⟩
abbrev main_v91 : Ref sig .tc := ⟨.hbm, 137, rfl⟩
abbrev main_v92 : Ref sig .tc := ⟨.hbm, 138, rfl⟩
abbrev main_c_26 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_27 : Ref sig .tc := ⟨.hbm, 145, rfl⟩
abbrev main_v98 : Ref sig .tc := ⟨.hbm, 146, rfl⟩
abbrev main_v99 : Ref sig .tc := ⟨.hbm, 147, rfl⟩
abbrev main_c_28 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_29 : Ref sig .tc := ⟨.hbm, 156, rfl⟩
abbrev main_v107 : Ref sig .tc := ⟨.hbm, 157, rfl⟩
abbrev main_v108 : Ref sig .tc := ⟨.hbm, 158, rfl⟩
abbrev main_c_30 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_31 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_32 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S512x128_S100000x1_S100000x128_1_0_0_1_wf : ScatterDims.WF S512x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.Spec.lean ====
/-
  The graph convolution network both programs compute, as one function of the argument arrays.

  The arguments are the node features x [100000, 128], the edge list [2, 640000] (row 0 the sources, row 1 the
  targets), the graph id of each node [100000] and three weight matrices [128, 128].  Every node gets a self loop:
  the 740000 edge ends are the listed ones followed by 0, 1, …, 99999.  With deg(v) the number of edges into v and
  dinv(v) = deg(v)^(-1/2) where deg(v) > 0 (else 0), an edge e has the weight norm(e) = dinv(src e) · dinv(tgt e).
  One layer multiplies the features by a weight matrix and then, for every node v, adds up norm(e) times the row of
  the source of e over the edges e into v.  The network is three layers, the third entered through
  leaky_relu(t) = t for t ≥ 0 and t/100 (the float nearest 1/100) otherwise, and its result is the sum of the node
  rows of each graph: an array [512, 128].

  Everything is spelt with the host's own operations (slice, concatenate, scatter-add, gather, broadcast, select), so
  that the statement says nothing about them beyond how they are composed; the side conditions those operations ask of
  the shapes are collected in `Facts`, a proposition, so two spellings that differ only in which proofs they were
  given are the same term.
-/
import Idealize.ShloMosaic.PureOps.Ideal

noncomputable section

namespace Cert.Spec

open Idealize.ShloMosaic

abbrev SNxD : Shape := ⟨2, ![100000, 128]⟩
abbrev S2xE : Shape := ⟨2, ![2, 640000]⟩
abbrev SN : Shape := ⟨1, ![100000]⟩
abbrev SDxD : Shape := ⟨2, ![128, 128]⟩
abbrev S1xE : Shape := ⟨2, ![1, 640000]⟩
abbrev SE : Shape := ⟨1, ![640000]⟩
abbrev SM : Shape := ⟨1, ![740000]⟩
abbrev S0 : Shape := ⟨0, ![]⟩
abbrev SMx1 : Shape := ⟨2, ![740000, 1]⟩
abbrev SMxD : Shape := ⟨2, ![740000, 128]⟩
abbrev SGxD : Shape := ⟨2, ![512, 128]⟩
abbrev SNx1 : Shape := ⟨2, ![100000, 1]⟩

/-- What the operations below ask of the shapes. -/
structure Facts : Prop where
  sl0 : S2xE.Slices ![0, 0] S1xE
  sl1 : S2xE.Slices ![1, 0] S1xE
  sc : S1xE.ShapeCasts SE
  cat : Shape.Concatenates [SE, SN] SM 0
  b_m : S0.BroadcastsInDim SM (![] : Fin 0 → Fin SM.rank)
  b_n : S0.BroadcastsInDim SN (![] : Fin 0 → Fin SN.rank)
  b_m1 : SM.BroadcastsInDim SMx1 (![0] : Fin 1 → Fin SMx1.rank)
  b_md : SMx1.BroadcastsInDim SMxD (![0, 1] : Fin 2 → Fin SMxD.rank)
  b_nd : S0.BroadcastsInDim SNxD (![] : Fin 0 → Fin SNxD.rank)
  b_gd : S0.BroadcastsInDim SGxD (![] : Fin 0 → Fin SGxD.rank)
  b_n1 : SN.BroadcastsInDim SNx1 (![0] : Fin 1 → Fin SNx1.rank)
  dot : DotDims.WF SNxD SDxD SNxD [1] [0] [0] [1] [] []
  scat1 : ScatterDims.WF SN SMx1 SM [] [0] [0] 1
  gath1 : GatherDims.WF SN SMx1 SM [] [0] [] [0] [] 1 ![1]
  gath2 : GatherDims.WF SNxD SMx1 SMxD [1] [0] [] [0] [] 1 ![1, 128]
  scat2 : ScatterDims.WF SNxD SMx1 SMxD [1] [0] [0] 1
  scat3 : ScatterDims.WF SGxD SNx1 SNxD [1] [0] [0] 1

variable (h : Facts)

/-- The whole product's dimension numbers: contract the features' axis 1 with the weights' axis 0. -/
def dotN : DotDims SNxD SDxD SNxD where
  lhsContracting := [1]
  rhsContracting := [0]
  lhsNonContracting := [0]
  rhsNonContracting := [1]
  lhsBatch := []
  rhsBatch := []
  wf := h.dot
/-- Adding a number per edge end into a vector over the nodes. -/
def scatN : ScatterDims SN SMx1 SM where
  updateWindowDims := []
  insertedWindowDims := [0]
  scatterDimsToOperandDims := [0]
  indexVectorDim := 1
  wf := h.scat1
/-- Reading a vector over the nodes at each edge end. -/
def gathN : GatherDims SN SMx1 SM where
  offsetDims := []
  collapsedSliceDims := [0]
  operandBatchingDims := []
  startIndicesBatchingDims := []
  startIndexMap := [0]
  indexVectorDim := 1
  sliceSizes := ![1]
  wf := h.gath1
/-- Reading a row of the node features at each edge end. -/
def gathND : GatherDims SNxD SMx1 SMxD where
  offsetDims := [1]
  collapsedSliceDims := [0]
  operandBatchingDims := []
  startIndicesBatchingDims := []
  startIndexMap := [0]
  indexVectorDim := 1
  sliceSizes := ![1, 128]
  wf := h.gath2
/-- Adding a row per edge end into the node features. -/
def scatND : ScatterDims SNxD SMx1 SMxD where
  updateWindowDims := [1]
  insertedWindowDims := [0]
  scatterDimsToOperandDims := [0]
  indexVectorDim := 1
  wf := h.scat2
/-- Adding each node's row into its graph's row. -/
def scatGD : ScatterDims SGxD SNx1 SNxD where
  updateWindowDims := [1]
  insertedWindowDims := [0]
  scatterDimsToOperandDims := [0]
  indexVectorDim := 1
  wf := h.scat3

/-- The edges' sources, self loops appended. -/
def srcs (ei : IVec S2xE 32) : IVec SM 32 :=
  concatenate SM 0 [⟨SE, shapeCast SE (extractStridedSlice S1xE ![0, 0] ei h.sl0) h.sc⟩, ⟨SN, iotaInDim SN 32 0⟩] h.cat

/-- The edges' targets, self loops appended. -/
def tgts (ei : IVec S2xE 32) : IVec SM 32 :=
  concatenate SM 0 [⟨SE, shapeCast SE (extractStridedSlice S1xE ![1, 0] ei h.sl1) h.sc⟩, ⟨SN, iotaInDim SN 32 0⟩] h.cat

/-- An index read the way jnp reads it: a negative one counts from the end. -/
def wrap (idx : IVec SM 32) : IVec SM 32 :=
  select (cmpi .slt idx (broadcastInDim SM ![] h.b_m (constantI S0 32 0#32)))
    (addi idx (broadcastInDim SM ![] h.b_m (constantI S0 32 100000#32))) idx

/-- How many edges end in each node. -/
def deg (ei : IVec S2xE 32) : FVec Ideal SN .f32 :=
  Host.scatterAdd (scatN h) (broadcastInDim SN ![] h.b_n (constant S0 .f32 0x00000000#32))
    (broadcastInDim SMx1 ![0] h.b_m1 (tgts h ei)) (broadcastInDim SM ![] h.b_m (constant S0 .f32 0x3F800000#32))

/-- `deg ^ (-1/2)` where the degree is positive, else zero. -/
def dinv (ei : IVec S2xE 32) : FVec Ideal SN .f32 :=
  select (cmpf .ogt (deg h ei) (broadcastInDim SN ![] h.b_n (constant S0 .f32 0x00000000#32))) (Host.rsqrt (deg h ei))
    (broadcastInDim SN ![] h.b_n (id (constant S0 .f32 0x00000000#32)))

/-- The weight of each edge: the product of `dinv` at its two ends. -/
def norm (ei : IVec S2xE 32) : FVec Ideal SM .f32 :=
  mulf (Host.gather (gathN h) (dinv h ei) (broadcastInDim SMx1 ![0] h.b_m1 (wrap h (srcs h ei))))
    (Host.gather (gathN h) (dinv h ei) (broadcastInDim SMx1 ![0] h.b_m1 (wrap h (tgts h ei))))

/-- The aggregation over given edge weights `nrm`, sources `src` and targets `tgt`: into each node, the weighted
    rows of `xw` at the sources of its incoming edges. -/
def aggOf (nrm : FVec Ideal SM .f32) (src tgt : IVec SM 32) (xw : FVec Ideal SNxD .f32) : FVec Ideal SNxD .f32 :=
  Host.scatterAdd (scatND h) (broadcastInDim SNxD ![] h.b_nd (constant S0 .f32 0x00000000#32))
    (broadcastInDim SMx1 ![0] h.b_m1 tgt)
    (mulf (broadcastInDim SMxD ![0, 1] h.b_md (broadcastInDim SMx1 ![0] h.b_m1 nrm))
      (Host.gather (gathND h) xw (broadcastInDim SMx1 ![0] h.b_m1 (wrap h src))))

/-- The aggregation of a layer, over the graph's own weights and edge ends. -/
def agg (ei : IVec S2xE 32) (xw : FVec Ideal SNxD .f32) : FVec Ideal SNxD .f32 :=
  aggOf h (norm h ei) (srcs h ei) (tgts h ei) xw

/-- The features times a weight matrix. -/
def mm (x : FVec Ideal SNxD .f32) (w : FVec Ideal SDxD .f32) : FVec Ideal SNxD .f32 :=
  Host.dotGeneral (dotN h) none x w

/-- `t` where `t ≥ 0`, else the float nearest 1/100 times `t`. -/
def leaky (x : FVec Ideal SNxD .f32) : FVec Ideal SNxD .f32 :=
  select (cmpf .oge x (broadcastInDim SNxD ![] h.b_nd (constant S0 .f32 0x00000000#32))) x
    (mulf (broadcastInDim SNxD ![] h.b_nd (id (constant S0 .f32 0x3C23D70A#32))) x)

/-- The sum of the node rows of each graph. -/
def pool (batch : IVec SN 32) (x : FVec Ideal SNxD .f32) : FVec Ideal SGxD .f32 :=
  Host.scatterAdd (scatGD h) (broadcastInDim SGxD ![] h.b_gd (constant S0 .f32 0x00000000#32))
    (broadcastInDim SNx1 ![0] h.b_n1 batch) x

/-- The network: three layers, the third entered through `leaky`, pooled per graph. -/
def out (x : FVec Ideal SNxD .f32) (ei : IVec S2xE 32) (batch : IVec SN 32) (w0 w1 w2 : FVec Ideal SDxD .f32) :
    FVec Ideal SGxD .f32 :=
  pool h batch (agg h ei (mm h (leaky h (agg h ei (mm h (agg h ei (mm h x w0)) w1))) w2))

end Cert.Spec

end
-- ==== Proof.KernelRun.lean ====
/-
  The idealized kernel's run, with its result named.

  The program is seven segments: four stretches of host operations around three kernel regions.  The buffer contents
  at the segment boundaries are a fold from the launch memory: after a stretch, the stretch's operations applied; after
  a region, the region's output array at what its write-backs leave and every other buffer as it was.  Every weakly
  fair execution terminates, nothing faulting, in a state whose unscoped buffers are at the last boundary's contents.
  Read at the result buffer this names the result; read at the argument buffers, which nothing writes, it gives them
  back as launched.
-/
import proofs.«104968_j30657476559416_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.KernelHost0.lean ====
/-
  The first stretch of host operations of the idealized kernel: the edge ends and the edge weights.

  Its first seven operations build the edge ends — the listed sources and the listed targets, each followed by the self
  loops 0, 1, …, 99999 —, and the other thirty-three the edge weights from them: the degree of every node (a count of
  the edges into it), its power -1/2 where the degree is positive and 0 elsewhere, and for every edge the product of
  that at its two ends.  The weights are read over the thirty-three as a function of the edge ends, and the edge ends
  over the seven; together the stretch leaves the specification's `srcs`, `tgts` and `norm` of the edge list, and it
  writes no argument.
-/
import proofs.«104968_j30657476559416_2_alg».proof.Proof.Gen.KernelIdeal.Launch
import proofs.«104968_j30657476559416_2_alg».proof.Proof.Spec
import proofs.«104968_j30657476559416_2_alg».proof.Proof.LibAfterAppend
import proofs.«104968_j30657476559416_2_alg».proof.Proof.LibTypedRefs
import Idealize.ShloMosaic.Lib.StableHlo.Run

set_option Elab.async false

noncomputable section

namespace Cert.KernelIdeal.Host

open Cert.KernelIdeal Cert.KernelIdeal.Gen Idealize.ShloMosaic Idealize.ShloMosaic.TcCoe Idealize.ShloMosaic.StableHlo

open Cert.Spec (SM SN SMx1 S0 scatN gathN wrap)

/-- The number of edges into each node, from the edges' targets. -/
def degOf (h : Cert.Spec.Facts) (tgt : IVec SM 32) : FVec Ideal SN .f32 :=
  Host.scatterAdd (scatN h) (broadcastInDim SN ![] h.b_n (constant S0 .f32 0x00000000#32))
    (broadcastInDim SMx1 ![0] h.b_m1 tgt) (broadcastInDim SM ![] h.b_m (constant S0 .f32 0x3F800000#32))

/-- Its power -1/2 where it is positive, 0 elsewhere. -/
def dinvOf (h : Cert.Spec.Facts) (tgt : IVec SM 32) : FVec Ideal SN .f32 :=
  select (cmpf .ogt (degOf h tgt) (broadcastInDim SN ![] h.b_n (constant S0 .f32 0x00000000#32))) (Host.rsqrt (degOf h tgt))
    (broadcastInDim SN ![] h.b_n (id (constant S0 .f32 0x00000000#32)))

/-- The edge weights from the edge ends: the product of that at an edge's source and at its target. -/
def normOf (h : Cert.Spec.Facts) (src tgt : IVec SM 32) : FVec Ideal SM .f32 :=
  mulf (Host.gather (gathN h) (dinvOf h tgt) (broadcastInDim SMx1 ![0] h.b_m1 (wrap h src)))
    (Host.gather (gathN h) (dinvOf h tgt) (broadcastInDim SMx1 ![0] h.b_m1 (wrap h tgt)))

/-- The specification's edge weights are these, at the specification's edge ends. -/
theorem norm_eq (h : Cert.Spec.Facts) (ei : IVec Cert.Spec.S2xE 32) :
    Cert.Spec.norm h ei = normOf h (Cert.Spec.srcs h ei) (Cert.Spec.tgts h ei) := rfl

/-! ## The edge ends -/

theorem s0_srcs (h : Cert.Spec.Facts) (W : Valuation τ sig (Elt Ideal)) :
    after (hostOps0 (F := Ideal)) W (main_call0_v3 : DevRef τ sig) = Cert.Spec.srcs h (W (main_arg1 : DevRef τ sig)) := by
  after_results_simp
  rfl

theorem s0_tgts (h : Cert.Spec.Facts) (W : Valuation τ sig (Elt Ideal)) :
    after (hostOps0 (F := Ideal)) W (main_call0_v6 : DevRef τ sig) = Cert.Spec.tgts h (W (main_arg1 : DevRef τ sig)) := by
  after_results_simp
  rfl

/-! ## The arguments are not written -/

theorem s0_keep_arg0 (W : Valuation τ sig (Elt Ideal)) :
    after (hostOps0 (F := Ideal)) W (main_arg0 : DevRef τ sig) = W (main_arg0 : DevRef τ sig) := by
  after_results_simp

theorem s0_keep_arg2 (W : Valuation τ sig (Elt Ideal)) :
    after (hostOps0 (F := Ideal)) W (main_arg2 : DevRef τ sig) = W (main_arg2 : DevRef τ sig) := by
  after_results_simp

theorem s0_keep_arg3 (W : Valuation τ sig (Elt Ideal)) :
    after (hostOps0 (F := Ideal)) W (main_arg3 : DevRef τ sig) = W (main_arg3 : DevRef τ sig) := by
  after_results_simp

theorem s0_keep_arg4 (W : Valuation τ sig (Elt Ideal)) :
    after (hostOps0 (F := Ideal)) W (main_arg4 : DevRef τ sig) = W (main_arg4 : DevRef τ sig) := by
  after_results_simp

theorem s0_keep_arg5 (W : Valuation τ sig (Elt Ideal)) :
    after (hostOps0 (F := Ideal)) W (main_arg5 : DevRef τ sig) = W (main_arg5 : DevRef τ sig) := by
  after_results_simp

/-! ## The edge weights -/

/-- The stretch is its first seven operations followed by the other thirty-three. -/
theorem cut (W : Valuation τ sig (Elt Ideal)) :
    after (hostOps0 (F := Ideal)) W = after (List.drop 7 (hostOps0 (F := Ideal))) (after (List.take 7 (hostOps0 (F := Ideal))) W) := by
  rw [← Cert.Lib.after_append, List.take_append_drop]

/-- The thirty-three leave the weights of the edge ends they find. -/
theorem weights_of_ends (h : Cert.Spec.Facts) (W' : Valuation τ sig (Elt Ideal)) :
    after (List.drop 7 (hostOps0 (F := Ideal))) W' (main_call0_v29 : DevRef τ sig)
      = normOf h (W' (main_call0_v3 : DevRef τ sig)) (W' (main_call0_v6 : DevRef τ sig)) := by
  simp only [hostOps0, List.drop_succ_cons, List.drop_zero]
  after_results_simp
  -- a value written to a buffer and read back is the value
  simp only [Cert.Lib.ofBuf_toBuf]
  rfl

/-- The seven leave the sources, -/
theorem ends_srcs (h : Cert.Spec.Facts) (W : Valuation τ sig (Elt Ideal)) :
    after (List.take 7 (hostOps0 (F := Ideal))) W (main_call0_v3 : DevRef τ sig) = Cert.Spec.srcs h (W (main_arg1 : DevRef τ sig)) := by
  simp only [hostOps0, List.take_succ_cons, List.take_zero]
  after_results_simp
  rfl

/-- and the targets. -/
theorem ends_tgts (h : Cert.Spec.Facts) (W : Valuation τ sig (Elt Ideal)) :
    after (List.take 7 (hostOps0 (F := Ideal))) W (main_call0_v6 : DevRef τ sig) = Cert.Spec.tgts h (W (main_arg1 : DevRef τ sig)) := by
  simp only [hostOps0, List.take_succ_cons, List.take_zero]
  after_results_simp
  rfl

theorem s0_norm (h : Cert.Spec.Facts) (W : Valuation τ sig (Elt Ideal)) :
    after (hostOps0 (F := Ideal)) W (main_call0_v29 : DevRef τ sig) = Cert.Spec.norm h (W (main_arg1 : DevRef τ sig)) := by
  rw [cut W, weights_of_ends h, ends_srcs h W, ends_tgts h W, norm_eq]

end Cert.KernelIdeal.Host

end
-- ==== Proof.KernelHost1.lean ====
/-
  The stretch of host operations between regions 0 and 1 of the idealized kernel, read as a function of the buffer contents it
  starts from.

  The host gathers region 0's rows at the edges' sources, multiplies them by the edge weights and adds them up at the
  targets.  The stretch is the specification's function of the contents of the buffers it
  reads, whatever those contents are, and it writes none of the buffers a later stretch or region reads from further
  back (the arguments, the edge ends, the edge weights).
-/
import proofs.«104968_j30657476559416_2_alg».proof.Proof.Gen.KernelIdeal.Launch
import proofs.«104968_j30657476559416_2_alg».proof.Proof.Spec
import Idealize.ShloMosaic.Lib.StableHlo.Run

set_option Elab.async false

noncomputable section

namespace Cert.KernelIdeal.Host

open Cert.KernelIdeal Cert.KernelIdeal.Gen Idealize.ShloMosaic Idealize.ShloMosaic.TcCoe Idealize.ShloMosaic.StableHlo

theorem s1_out (h : Cert.Spec.Facts) (W : Valuation τ sig (Elt Ideal)) :
    after (hostOps1 (F := Ideal)) W (main_call0_v44 : DevRef τ sig)
      = Cert.Spec.aggOf h (W (main_call0_v29 : DevRef τ sig)) (W (main_call0_v3 : DevRef τ sig)) (W (main_call0_v6 : DevRef τ sig)) (W (main_call0_v30 : DevRef τ sig)) := by
  after_results_simp
  rfl

theorem s1_keep_v29 (W : Valuation τ sig (Elt Ideal)) :
    after (hostOps1 (F := Ideal)) W (main_call0_v29 : DevRef τ sig) = W (main_call0_v29 : DevRef τ sig) := by
  after_results_simp

theorem s1_keep_v3 (W : Valuation τ sig (Elt Ideal)) :
    after (hostOps1 (F := Ideal)) W (main_call0_v3 : DevRef τ sig) = W (main_call0_v3 : DevRef τ sig) := by
  after_results_simp

theorem s1_keep_v6 (W : Valuation τ sig (Elt Ideal)) :
    after (hostOps1 (F := Ideal)) W (main_call0_v6 : DevRef τ sig) = W (main_call0_v6 : DevRef τ sig) := by
  after_results_simp

theorem s1_keep_arg2 (W : Valuation τ sig (Elt Ideal)) :
    after (hostOps1 (F := Ideal)) W (main_arg2 : DevRef τ sig) = W (main_arg2 : DevRef τ sig) := by
  after_results_simp

theorem s1_keep_arg4 (W : Valuation τ sig (Elt Ideal)) :
    after (hostOps1 (F := Ideal)) W (main_arg4 : DevRef τ sig) = W (main_arg4 : DevRef τ sig) := by
  after_results_simp

theorem s1_keep_arg5 (W : Valuation τ sig (Elt Ideal)) :
    after (hostOps1 (F := Ideal)) W (main_arg5 : DevRef τ sig) = W (main_arg5 : DevRef τ sig) := by
  after_results_simp

end Cert.KernelIdeal.Host

end
-- ==== Proof.KernelHost2.lean ====
/-
  The stretch of host operations between regions 1 and 2 of the idealized kernel, read as a function of the buffer contents it
  starts from.

  The host gathers region 1's rows at the edges' sources, multiplies them by the edge weights and adds them up at the
  targets.  The stretch is the specification's function of the contents of the buffers it
  reads, whatever those contents are, and it writes none of the buffers a later stretch or region reads from further
  back (the arguments, the edge ends, the edge weights).
-/
import proofs.«104968_j30657476559416_2_alg».proof.Proof.Gen.KernelIdeal.Launch
import proofs.«104968_j30657476559416_2_alg».proof.Proof.Spec
import Idealize.ShloMosaic.Lib.StableHlo.Run

set_option Elab.async false

noncomputable section

namespace Cert.KernelIdeal.Host

open Cert.KernelIdeal Cert.KernelIdeal.Gen Idealize.ShloMosaic Idealize.ShloMosaic.TcCoe Idealize.ShloMosaic.StableHlo

theorem s2_out (h : Cert.Spec.Facts) (W : Valuation τ sig (Elt Ideal)) :
    after (hostOps2 (F := Ideal)) W (main_call0_v59 : DevRef τ sig)
      = Cert.Spec.aggOf h (W (main_call0_v29 : DevRef τ sig)) (W (main_call0_v3 : DevRef τ sig)) (W (main_call0_v6 : DevRef τ sig)) (W (main_call0_v45 : DevRef τ sig)) := by
  after_results_simp
  rfl

theorem s2_keep_v29 (W : Valuation τ sig (Elt Ideal)) :
    after (hostOps2 (F := Ideal)) W (main_call0_v29 : DevRef τ sig) = W (main_call0_v29 : DevRef τ sig) := by
  after_results_simp

theorem s2_keep_v3 (W : Valuation τ sig (Elt Ideal)) :
    after (hostOps2 (F := Ideal)) W (main_call0_v3 : DevRef τ sig) = W (main_call0_v3 : DevRef τ sig) := by
  after_results_simp

theorem s2_keep_v6 (W : Valuation τ sig (Elt Ideal)) :
    after (hostOps2 (F := Ideal)) W (main_call0_v6 : DevRef τ sig) = W (main_call0_v6 : DevRef τ sig) := by
  after_results_simp

theorem s2_keep_arg2 (W : Valuation τ sig (Elt Ideal)) :
    after (hostOps2 (F := Ideal)) W (main_arg2 : DevRef τ sig) = W (main_arg2 : DevRef τ sig) := by
  after_results_simp

theorem s2_keep_arg5 (W : Valuation τ sig (Elt Ideal)) :
    after (hostOps2 (F := Ideal)) W (main_arg5 : DevRef τ sig) = W (main_arg5 : DevRef τ sig) := by
  after_results_simp

end Cert.KernelIdeal.Host

end
-- ==== Proof.KernelHost3.lean ====
/-
  The stretch of host operations after region 2 of the idealized kernel, read as a function of the buffer contents it
  starts from.

  The host gathers region 2's rows at the edges' sources, multiplies them by the edge weights, adds them up at the
  targets, and then adds the node rows up by graph.  The stretch is the specification's function of the contents of the buffers it
  reads, whatever those contents are, and it writes none of the buffers a later stretch or region reads from further
  back (the arguments, the edge ends, the edge weights).
-/
import proofs.«104968_j30657476559416_2_alg».proof.Proof.Gen.KernelIdeal.Launch
import proofs.«104968_j30657476559416_2_alg».proof.Proof.Spec
import proofs.«104968_j30657476559416_2_alg».proof.Proof.LibTypedRefs
import Idealize.ShloMosaic.Lib.StableHlo.Run

set_option Elab.async false

noncomputable section

namespace Cert.KernelIdeal.Host

open Cert.KernelIdeal Cert.KernelIdeal.Gen Idealize.ShloMosaic Idealize.ShloMosaic.TcCoe Idealize.ShloMosaic.StableHlo

theorem s3_out (h : Cert.Spec.Facts) (W : Valuation τ sig (Elt Ideal)) :
    after (hostOps3 (F := Ideal)) W (main_v0 : DevRef τ sig)
      = Cert.Spec.pool h (W (main_arg2 : DevRef τ sig))
          (Cert.Spec.aggOf h (W (main_call0_v29 : DevRef τ sig)) (W (main_call0_v3 : DevRef τ sig)) (W (main_call0_v6 : DevRef τ sig)) (W (main_call0_v60 : DevRef τ sig))) := by
  after_results_simp
  -- a value written to a buffer and read back is the value
  simp only [Cert.Lib.ofBuf_toBuf]
  rfl

end Cert.KernelIdeal.Host

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«104968_j30657476559416_2_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.KernelRegion0.lean ====
/-
  Region 0 of the idealized kernel: the array it leaves is the whole matrix product.

  The region runs over ten grid points.  Point t reads rows 10000 t … 10000 t + 9999 of the features (all 128
  columns) and the whole 128 × 128 weight matrix, and writes back rows 10000 t … 10000 t + 9999 of the output.  The body truncates both to bf16, multiplies them into a zero accumulator and truncates the product.
  Entry (p, q) of what it writes is the sum over k < 128 of block(p, k) · weights(k, q): a change of float format
  is the identity on the extended reals, and a product into the zero accumulator is the plain sum.  The same sum is
  entry (10000 t + p, q) of the host's product of the whole arrays, so each point writes its block of that product; the
  ten blocks cover all 100000 rows, so the output array ends equal to it.
-/
import proofs.«104968_j30657476559416_2_alg».proof.Proof.Gen.KernelIdeal.Frame
import proofs.«104968_j30657476559416_2_alg».proof.Proof.Spec
import proofs.«104968_j30657476559416_2_alg».proof.Proof.LibMatmul2
import proofs.«104968_j30657476559416_2_alg».proof.Proof.LibHostDot2
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A change of float format is the identity on the extended reals. -/
theorem truncf_id {S : Shape} {φ ψ : FTy} (x : FVec Ideal S φ) (hb : ψ.bits < φ.bits) :
    truncf ψ x hb = (x : FVec Ideal S ψ) := rfl

/-- The payload at (p, q): the sum over k of block(p, k) · weights(k, q). -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  simp only [truncf_id]
  exact Cert.Lib.matmul2_zero_apply (A := 10000) (K := 128) (B := 128) (φ₁ := .bf16) (φ₂ := .bf16)
    Facts₀.dot_S10000x128_S128x128_S10000x128_1_0_0_1_n_n_wf x0 x1 p q

/-- The same sum is an entry of the host's product of the whole arrays: if the block's rows are rows
    10000 t … of `X` and its weights are `Wm`, then the payload at (p, q) is the whole product at (10000 t + p, q). -/
theorem block_eq (h : Cert.Spec.Facts) (X : Cert.Spec.SNxD.Idx → EReal) (Wm : Cert.Spec.SDxD.Idx → EReal)
    (x0 : Vec Ideal S10000x128 .f32) (x1 : Vec Ideal S128x128 .f32) (t : ℕ)
    (hx0 : ∀ (p : Fin 10000) (k : Fin 128) (P : Fin 100000), P.val = t * 10000 + p.val → x0 (ix2 p k) = X (ix2 P k))
    (hx1 : ∀ (k q : Fin 128), x1 (ix2 k q) = Wm (ix2 k q))
    (j : S10000x128.Idx) (i : Cert.Spec.SNxD.Idx) (hi0 : (i 0).val = t * 10000 + (j 0).val) (hi1 : (i 1).val = (j 1).val) :
    k0_pay1 x0 x1 j = Cert.Spec.mm h X Wm i := by
  obtain ⟨p, q, rfl⟩ : ∃ (p : Fin 10000) (q : Fin 128), j = ix2 p q := ⟨j 0, j 1, eq_ix2 j⟩
  obtain ⟨P, q', rfl⟩ : ∃ (P : Fin 100000) (q' : Fin 128), i = ix2 P q' := ⟨i 0, i 1, eq_ix2 i⟩
  have hq : q' = q := Fin.ext hi1
  subst hq
  rw [pay_apply]
  refine Eq.trans ?_ (Cert.Lib.hostDot2_apply (A := 100000) (K := 128) (B := 128) h.dot X Wm P q').symm
  exact Finset.sum_congr rfl fun k _ => by rw [hx0 p k P hi0, hx1 k q']

/-- The printed index maps over the grid: the features' and the output's block index is the grid point on the rows and 0
    on the columns; the weights' is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem flushed_eq (h : Cert.Spec.Facts) (c : Dev nD) (t : Fin cfg0.N) :
    (dat0 V c).flushed 2 t = ((cfg0.win 2).blk t).view.read (Elt Ideal)
      (Cert.Spec.mm h (V c main_arg0) (V c main_arg3) : Buf (Elt Ideal) ((c : Thread nD τ).loc main_call0_v30)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  refine funext fun (j : S10000x128.Idx) => ?_
  refine block_eq h (V c main_arg0) (V c main_arg3) (iblk0 V c 0 t) (iblk0 V c 1 t) t.val ?_ ?_ j _ ?_ ?_
  · intro p k P hP
    show V c main_arg0 (((cfg0.win 0).blk t).view.emb (ix2 p k)) = V c main_arg0 (ix2 P k)
    refine congrArg (V c main_arg0) ?_
    funext a; apply Fin.ext
    match a with
    | ⟨0, _⟩ => show win0_0.index t (0 : Fin 2) * 10000 + 1 * p.val = P.val; omega
    | ⟨1, _⟩ => show win0_0.index t (1 : Fin 2) * 128 + 1 * k.val = k.val; omega
  · intro k q
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 10000 + 1 * (j 0).val = t.val * 10000 + (j 0).val; omega
  · show win0_2.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_call0_v30).slice (win0_2.rect t)).set ↔ _
  rw [View.set_slice_whole, Rect.mem_set_unit]
  exact Iff.rfl

/-- Row r of the output is in the block of point r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region is the whole product of the arrays as the region finds them. -/
theorem final (h : Cert.Spec.Facts) (c : Dev nD) :
    (dat0 V c).arrAt 2 cfg0.N
      = (Cert.Spec.mm h (V c main_arg0) (V c main_arg3) : Buf (Elt Ideal) ((c : Thread nD τ).loc main_call0_v30)) :=
  (dat0 V c).arrAt_eq_of_cover 2 _ (fun t _ => flushed_eq V h c t) (cover)

end Cert.KernelIdeal.Region0

end
-- ==== Proof.KernelRegion1.lean ====
/-
  Region 1 of the idealized kernel: the array it leaves is the whole matrix product.

  The region runs over ten grid points.  Point t reads rows 10000 t … 10000 t + 9999 of the features (all 128
  columns) and the whole 128 × 128 weight matrix, and writes back rows 10000 t … 10000 t + 9999 of the output.  The body truncates both to bf16, multiplies them into a zero accumulator and truncates the product.
  Entry (p, q) of what it writes is the sum over k < 128 of block(p, k) · weights(k, q): a change of float format
  is the identity on the extended reals, and a product into the zero accumulator is the plain sum.  The same sum is
  entry (10000 t + p, q) of the host's product of the whole arrays, so each point writes its block of that product; the
  ten blocks cover all 100000 rows, so the output array ends equal to it.
-/
import proofs.«104968_j30657476559416_2_alg».proof.Proof.Gen.KernelIdeal.Frame
import proofs.«104968_j30657476559416_2_alg».proof.Proof.Spec
import proofs.«104968_j30657476559416_2_alg».proof.Proof.LibMatmul2
import proofs.«104968_j30657476559416_2_alg».proof.Proof.LibHostDot2
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A change of float format is the identity on the extended reals. -/
theorem truncf_id {S : Shape} {φ ψ : FTy} (x : FVec Ideal S φ) (hb : ψ.bits < φ.bits) :
    truncf ψ x hb = (x : FVec Ideal S ψ) := rfl

/-- The payload at (p, q): the sum over k of block(p, k) · weights(k, q). -/
theorem pay_apply (x0 : Vec Ideal S10000x128 .f32) (x1 : Vec Ideal S128x128 .f32) (p : Fin 10000) (q : Fin 128) :
    k1_pay1 x0 x1 (ix2 p q) = ∑ k : Fin 128, x0 (ix2 p k) * x1 (ix2 k q) := by
  unfold k1_pay1
  simp only [truncf_id, shapeCast_self]
  exact Cert.Lib.matmul2_zero_apply (A := 10000) (K := 128) (B := 128) (φ₁ := .bf16) (φ₂ := .bf16)
    Facts₀.dot_S10000x128_S128x128_S10000x128_1_0_0_1_n_n_wf x0 x1 p q

/-- The same sum is an entry of the host's product of the whole arrays: if the block's rows are rows
    10000 t … of `X` and its weights are `Wm`, then the payload at (p, q) is the whole product at (10000 t + p, q). -/
theorem block_eq (h : Cert.Spec.Facts) (X : Cert.Spec.SNxD.Idx → EReal) (Wm : Cert.Spec.SDxD.Idx → EReal)
    (x0 : Vec Ideal S10000x128 .f32) (x1 : Vec Ideal S128x128 .f32) (t : ℕ)
    (hx0 : ∀ (p : Fin 10000) (k : Fin 128) (P : Fin 100000), P.val = t * 10000 + p.val → x0 (ix2 p k) = X (ix2 P k))
    (hx1 : ∀ (k q : Fin 128), x1 (ix2 k q) = Wm (ix2 k q))
    (j : S10000x128.Idx) (i : Cert.Spec.SNxD.Idx) (hi0 : (i 0).val = t * 10000 + (j 0).val) (hi1 : (i 1).val = (j 1).val) :
    k1_pay1 x0 x1 j = Cert.Spec.mm h X Wm i := by
  obtain ⟨p, q, rfl⟩ : ∃ (p : Fin 10000) (q : Fin 128), j = ix2 p q := ⟨j 0, j 1, eq_ix2 j⟩
  obtain ⟨P, q', rfl⟩ : ∃ (P : Fin 100000) (q' : Fin 128), i = ix2 P q' := ⟨i 0, i 1, eq_ix2 i⟩
  have hq : q' = q := Fin.ext hi1
  subst hq
  rw [pay_apply]
  refine Eq.trans ?_ (Cert.Lib.hostDot2_apply (A := 100000) (K := 128) (B := 128) h.dot X Wm P q').symm
  exact Finset.sum_congr rfl fun k _ => by rw [hx0 p k P hi0, hx1 k q']

/-- The printed index maps over the grid: the features' and the output's block index is the grid point on the rows and 0
    on the columns; the weights' is (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays as the region finds them. -/
theorem flushed_eq (h : Cert.Spec.Facts) (c : Dev nD) (t : Fin cfg1.N) :
    (dat1 V c).flushed 2 t = ((cfg1.win 2).blk t).view.read (Elt Ideal)
      (Cert.Spec.mm h (V c main_call0_v44) (V c main_arg4) : Buf (Elt Ideal) ((c : Thread nD τ).loc main_call0_v45)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := idx_facts t
  refine funext fun (j : S10000x128.Idx) => ?_
  refine block_eq h (V c main_call0_v44) (V c main_arg4) (iblk1 V c 0 t) (iblk1 V c 1 t) t.val ?_ ?_ j _ ?_ ?_
  · intro p k P hP
    show V c main_call0_v44 (((cfg1.win 0).blk t).view.emb (ix2 p k)) = V c main_call0_v44 (ix2 P k)
    refine congrArg (V c main_call0_v44) ?_
    funext a; apply Fin.ext
    match a with
    | ⟨0, _⟩ => show win1_0.index t (0 : Fin 2) * 10000 + 1 * p.val = P.val; omega
    | ⟨1, _⟩ => show win1_0.index t (1 : Fin 2) * 128 + 1 * k.val = k.val; omega
  · intro k q
    show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  · show win1_2.index t (0 : Fin 2) * 10000 + 1 * (j 0).val = t.val * 10000 + (j 0).val; omega
  · show win1_2.index t (1 : Fin 2) * 128 + 1 * (j 1).val = (j 1).val; omega

/-- An index of the output array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_call0_v45).slice (win1_2.rect t)).set ↔ _
  rw [View.set_slice_whole, Rect.mem_set_unit]
  exact Iff.rfl

/-- Row r of the output is in the block of point r / 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨e0, e1, e2, e3, e4, e5⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region is the whole product of the arrays as the region finds them. -/
theorem final (h : Cert.Spec.Facts) (c : Dev nD) :
    (dat1 V c).arrAt 2 cfg1.N
      = (Cert.Spec.mm h (V c main_call0_v44) (V c main_arg4) : Buf (Elt Ideal) ((c : Thread nD τ).loc main_call0_v45)) :=
  (dat1 V c).arrAt_eq_of_cover 2 _ (fun t _ => flushed_eq V h c t) (cover)

end Cert.KernelIdeal.Region1

end
-- ==== Proof.KernelRegion2.lean ====
/-
  Region 2 of the idealized kernel: the array it leaves is the whole matrix product of leaky_relu of the features.

  The region runs over ten grid points.  Point t reads rows 10000 t … 10000 t + 9999 of the features (all 128
  columns) and the whole 128 × 128 weight matrix, and writes back rows 10000 t … 10000 t + 9999 of the output.  The body applies leaky_relu to the feature block, truncates both to bf16, multiplies them into a zero accumulator and truncates the product.
  Entry (p, q) of what it writes is the sum over k < 128 of block(p, k) · weights(k, q): a change of float format
  is the identity on the extended reals, and a product into the zero accumulator is the plain sum.  The same sum is
  entry (10000 t + p, q) of the host's product of the whole arrays, applied to leaky_relu of the features (choosing by > 0 or by ≥ 0 is the same choice, both being 0 at 0), so each point writes its block of that product; the
  ten blocks cover all 100000 rows, so the output array ends equal to it.
-/
import proofs.«104968_j30657476559416_2_alg».proof.Proof.Gen.KernelIdeal.Frame
import proofs.«104968_j30657476559416_2_alg».proof.Proof.Spec
import proofs.«104968_j30657476559416_2_alg».proof.Proof.LibMatmul2
import proofs.«104968_j30657476559416_2_alg».proof.Proof.LibHostDot2
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A change of float format is the identity on the extended reals. -/
theorem truncf_id {S : Shape} {φ ψ : FTy} (x : FVec Ideal S φ) (hb : ψ.bits < φ.bits) :
    truncf ψ x hb = (x : FVec Ideal S ψ) := rfl

/-- The body's leaky_relu of a block: `v` where `v > 0`, else the constant times `v`. -/
def lk (x : FVec Ideal S10000x128 .f32) : FVec Ideal S10000x128 .f32 :=
  select (cmpf (F := Ideal) .ogt x (broadcast S10000x128 (Scalar.ofBits (F := Ideal) .f32 0x00000000#32))) x
    (mulf (F := Ideal) (broadcast S10000x128 (Scalar.ofBits (F := Ideal) .f32 0x3C23D70A#32)) x)

/-- Choosing by `v > 0` or by `v ≥ 0` between `v` and `c · v` is the same choice: at `v = 0` both are `0`. -/
theorem leaky_scalar (v c : EReal) :
    Scalar.select (Ideal.cmp .ogt v 0) v (c * v) = Scalar.select (Ideal.cmp .oge v 0) v (c * v) := by
  unfold Scalar.select Ideal.cmp
  by_cases h1 : (0 : EReal) < v
  · simp [h1, h1.le]
  · by_cases h2 : (0 : EReal) ≤ v
    · have h0 : v = 0 := le_antisymm (not_lt.mp h1) h2
      subst h0; simp
    · simp [h1, h2]

/-- The body's leaky_relu at an entry of the block is the host's at the corresponding entry of the array. -/
theorem leaky_apply (h : Cert.Spec.Facts) (X : Cert.Spec.SNxD.Idx → EReal) (x0 : Vec Ideal S10000x128 .f32)
    (p : Fin 10000) (k : Fin 128) (P : Fin 100000) (hx : x0 (ix2 p k) = X (ix2 P k)) :
    lk x0 (ix2 p k) = Cert.Spec.leaky h X (ix2 P k) := by
  show Scalar.select (Ideal.cmp .ogt (x0 (ix2 p k)) (Ideal.ofBits .f32 0x00000000#32)) (x0 (ix2 p k))
        (Ideal.ofBits .f32 0x3C23D70A#32 * x0 (ix2 p k))
     = Scalar.select (Ideal.cmp .oge (X (ix2 P k)) (Ideal.ofBits .f32 0x00000000#32)) (X (ix2 P k))
        (Ideal.ofBits .f32 0x3C23D70A#32 * X (ix2 P k))
  rw [hx, Ideal.ofBits_zero_f32]
  exact leaky_scalar _ _

/-- The payload at (p, q): the sum over k of leaky_relu(block)(p, k) · weights(k, q). -/
theorem pay_apply (x0 : Vec Ideal S10000x128 .f32) (x1 : Vec Ideal S128x128 .f32) (p : Fin 10000) (q : Fin 128) :
    k2_pay1 x0 x1 (ix2 p q) = ∑ k : Fin 128, lk x0 (ix2 p k) * x1 (ix2 k q) := by
  unfold k2_pay1
  simp only [truncf_id, shapeCast_self]
  exact Cert.Lib.matmul2_zero_apply (A := 10000) (K := 128) (B := 128) (φ₁ := .bf16) (φ₂ := .bf16)
    Facts₀.dot_S10000x128_S128x128_S10000x128_1_0_0_1_n_n_wf (lk x0) x1 p q

/-- The same sum is an entry of the host's product of leaky_relu of the whole features with the weights: if the block's
    rows are rows 10000 t … of `X` and its weights are `Wm`, then the payload at (p, q) is that product at (10000 t + p, q). -/
theorem block_eq (h : Cert.Spec.Facts) (X : Cert.Spec.SNxD.Idx → EReal) (Wm : Cert.Spec.SDxD.Idx → EReal)
    (x0 : Vec Ideal S10000x128 .f32) (x1 : Vec Ideal S128x128 .f32) (t : ℕ)
    (hx0 : ∀ (p : Fin 10000) (k : Fin 128) (P : Fin 100000), P.val = t * 10000 + p.val → x0 (ix2 p k) = X (ix2 P k))
    (hx1 : ∀ (k q : Fin 128), x1 (ix2 k q) = Wm (ix2 k q))
    (j : S10000x128.Idx) (i : Cert.Spec.SNxD.Idx) (hi0 : (i 0).val = t * 10000 + (j 0).val) (hi1 : (i 1).val = (j 1).val) :
    k2_pay1 x0 x1 j = Cert.Spec.mm h (Cert.Spec.leaky h X) Wm i := by
  obtain ⟨p, q, rfl⟩ : ∃ (p : Fin 10000) (q : Fin 128), j = ix2 p q := ⟨j 0, j 1, eq_ix2 j⟩
  obtain ⟨P, q', rfl⟩ : ∃ (P : Fin 100000) (q' : Fin 128), i = ix2 P q' := ⟨i 0, i 1, eq_ix2 i⟩
  have hq : q' = q := Fin.ext hi1
  subst hq
  rw [pay_apply]
  refine Eq.trans ?_ (Cert.Lib.hostDot2_apply (A := 100000) (K := 128) (B := 128) h.dot (Cert.Spec.leaky h X) Wm P q').symm
  exact Finset.sum_congr rfl fun k _ => by rw [leaky_apply h X x0 p k P (hx0 p k P hi0), hx1 k q']

/-- The printed index maps over the grid: the features' and the output's block index is the grid point on the rows and 0
    on the columns; the weights' is (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product, of leaky_relu of the features as the region finds them. -/
theorem flushed_eq (h : Cert.Spec.Facts) (c : Dev nD) (t : Fin cfg2.N) :
    (dat2 V c).flushed 2 t = ((cfg2.win 2).blk t).view.read (Elt Ideal)
      (Cert.Spec.mm h (Cert.Spec.leaky h (V c main_call0_v59)) (V c main_arg5) : Buf (Elt Ideal) ((c : Thread nD τ).loc main_call0_v60)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx_facts t
  refine funext fun (j : S10000x128.Idx) => ?_
  refine block_eq h (V c main_call0_v59) (V c main_arg5) (iblk2 V c 0 t) (iblk2 V c 1 t) t.val ?_ ?_ j _ ?_ ?_
  · intro p k P hP
    show V c main_call0_v59 (((cfg2.win 0).blk t).view.emb (ix2 p k)) = V c main_call0_v59 (ix2 P k)
    refine congrArg (V c main_call0_v59) ?_
    funext a; apply Fin.ext
    match a with
    | ⟨0, _⟩ => show win2_0.index t (0 : Fin 2) * 10000 + 1 * p.val = P.val; omega
    | ⟨1, _⟩ => show win2_0.index t (1 : Fin 2) * 128 + 1 * k.val = k.val; omega
  · intro k q
    show V c main_arg5 (((cfg2.win 1).blk t).view.emb (ix2 k q)) = V c main_arg5 (ix2 k q)
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  · show win2_2.index t (0 : Fin 2) * 10000 + 1 * (j 0).val = t.val * 10000 + (j 0).val; omega
  · show win2_2.index t (1 : Fin 2) * 128 + 1 * (j 1).val = (j 1).val; omega

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_call0_v60).slice (win2_2.rect t)).set ↔ _
  rw [View.set_slice_whole, Rect.mem_set_unit]
  exact Iff.rfl

/-- Row r of the output is in the block of point r / 10000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨e0, e1, e2, e3, e4, e5⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the region is the whole product of leaky_relu of the features with the weights. -/
theorem final (h : Cert.Spec.Facts) (c : Dev nD) :
    (dat2 V c).arrAt 2 cfg2.N
      = (Cert.Spec.mm h (Cert.Spec.leaky h (V c main_call0_v59)) (V c main_arg5) : Buf (Elt Ideal) ((c : Thread nD τ).loc main_call0_v60)) :=
  (dat2 V c).arrAt_eq_of_cover 2 _ (fun t _ => flushed_eq V h c t) (cover)

end Cert.KernelIdeal.Region2

end
-- ==== Proof.KernelValue.lean ====
/-
  The idealized kernel's result is the network of the specification.

  The buffer contents at the seven segment boundaries are followed from the launch memory to the result.  After the
  first stretch the edge ends and the edge weights are the specification's functions of the edge list.  Each region
  leaves the product of its feature operand (for the third, of leaky_relu of it) with its weight matrix; each following
  stretch aggregates that product over the edges; the last stretch also adds the node rows up by graph.  Nothing on the
  way writes the arguments, the edge ends or the weights, so every stage reads them as the first stretch left them, and
  the composition is the specification's `out` of the six arguments.
-/
import proofs.«104968_j30657476559416_2_alg».proof.Proof.Gen.KernelIdeal.Frame
import proofs.«104968_j30657476559416_2_alg».proof.Proof.Spec
import proofs.«104968_j30657476559416_2_alg».proof.Proof.KernelHost0
import proofs.«104968_j30657476559416_2_alg».proof.Proof.KernelHost1
import proofs.«104968_j30657476559416_2_alg».proof.Proof.KernelHost2
import proofs.«104968_j30657476559416_2_alg».proof.Proof.KernelHost3
import proofs.«104968_j30657476559416_2_alg».proof.Proof.KernelRegion0
import proofs.«104968_j30657476559416_2_alg».proof.Proof.KernelRegion1
import proofs.«104968_j30657476559416_2_alg».proof.Proof.KernelRegion2

set_option maxRecDepth 16384

noncomputable section

namespace Cert.KernelIdeal.Whole

open Cert.KernelIdeal Cert.KernelIdeal.Gen Idealize.ShloMosaic Idealize.ShloMosaic.TcCoe Idealize.SL.Sem
open Cert.Spec (srcs tgts norm aggOf agg mm leaky pool out)

variable (m : (ℓ : Loc nD τ sig) → Buf (Elt Ideal) ℓ) (ρ : Dev nD → PrngReg)

/-- The result buffer at the last boundary is the specification's network of the arguments as launched. -/
theorem value (h : Cert.Spec.Facts) (c : Dev nD) :
    W7 m ρ c (Proc.devRef .tc main_v0)
      = out h (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- after the first stretch
  have h1s : W1 m ρ c (Proc.devRef .tc main_call0_v3) = srcs h (m ((c : Thread nD τ).loc main_arg1)) := Host.s0_srcs h (W0 m ρ c)
  have h1t : W1 m ρ c (Proc.devRef .tc main_call0_v6) = tgts h (m ((c : Thread nD τ).loc main_arg1)) := Host.s0_tgts h (W0 m ρ c)
  have h1n : W1 m ρ c (Proc.devRef .tc main_call0_v29) = norm h (m ((c : Thread nD τ).loc main_arg1)) := Host.s0_norm h (W0 m ρ c)
  have h1a0 : W1 m ρ c (Proc.devRef .tc main_arg0) = m ((c : Thread nD τ).loc main_arg0) := Host.s0_keep_arg0 (W0 m ρ c)
  have h1a2 : W1 m ρ c (Proc.devRef .tc main_arg2) = m ((c : Thread nD τ).loc main_arg2) := Host.s0_keep_arg2 (W0 m ρ c)
  have h1a3 : W1 m ρ c (Proc.devRef .tc main_arg3) = m ((c : Thread nD τ).loc main_arg3) := Host.s0_keep_arg3 (W0 m ρ c)
  have h1a4 : W1 m ρ c (Proc.devRef .tc main_arg4) = m ((c : Thread nD τ).loc main_arg4) := Host.s0_keep_arg4 (W0 m ρ c)
  have h1a5 : W1 m ρ c (Proc.devRef .tc main_arg5) = m ((c : Thread nD τ).loc main_arg5) := Host.s0_keep_arg5 (W0 m ρ c)
  -- at region 0's exit
  have h2o : W2 m ρ c (Proc.devRef .tc main_call0_v30) = mm h (m ((c : Thread nD τ).loc main_arg0)) (m ((c : Thread nD τ).loc main_arg3)) :=
    (W2_arr m ρ c 2).trans ((Region0.final (V1 m ρ) h c).trans (by
      show mm h (W1 m ρ c (Proc.devRef .tc main_arg0)) (W1 m ρ c (Proc.devRef .tc main_arg3)) = _
      rw [h1a0, h1a3]))
  have h2s : W2 m ρ c (Proc.devRef .tc main_call0_v3) = srcs h (m ((c : Thread nD τ).loc main_arg1)) := (W2_of_ne m ρ c main_call0_v3 (by decide)).trans h1s
  have h2t : W2 m ρ c (Proc.devRef .tc main_call0_v6) = tgts h (m ((c : Thread nD τ).loc main_arg1)) := (W2_of_ne m ρ c main_call0_v6 (by decide)).trans h1t
  have h2n : W2 m ρ c (Proc.devRef .tc main_call0_v29) = norm h (m ((c : Thread nD τ).loc main_arg1)) := (W2_of_ne m ρ c main_call0_v29 (by decide)).trans h1n
  have h2a2 : W2 m ρ c (Proc.devRef .tc main_arg2) = m ((c : Thread nD τ).loc main_arg2) := (W2_of_ne m ρ c main_arg2 (by decide)).trans h1a2
  have h2a4 : W2 m ρ c (Proc.devRef .tc main_arg4) = m ((c : Thread nD τ).loc main_arg4) := (W2_of_ne m ρ c main_arg4 (by decide)).trans h1a4
  have h2a5 : W2 m ρ c (Proc.devRef .tc main_arg5) = m ((c : Thread nD τ).loc main_arg5) := (W2_of_ne m ρ c main_arg5 (by decide)).trans h1a5
  -- after the first aggregation
  have h3o : W3 m ρ c (Proc.devRef .tc main_call0_v44) = agg h (m ((c : Thread nD τ).loc main_arg1)) (mm h (m ((c : Thread nD τ).loc main_arg0)) (m ((c : Thread nD τ).loc main_arg3))) :=
    (Host.s1_out h (W2 m ρ c)).trans (by rw [h2n, h2s, h2t, h2o]; rfl)
  have h3s : W3 m ρ c (Proc.devRef .tc main_call0_v3) = srcs h (m ((c : Thread nD τ).loc main_arg1)) := (Host.s1_keep_v3 (W2 m ρ c)).trans h2s
  have h3t : W3 m ρ c (Proc.devRef .tc main_call0_v6) = tgts h (m ((c : Thread nD τ).loc main_arg1)) := (Host.s1_keep_v6 (W2 m ρ c)).trans h2t
  have h3n : W3 m ρ c (Proc.devRef .tc main_call0_v29) = norm h (m ((c : Thread nD τ).loc main_arg1)) := (Host.s1_keep_v29 (W2 m ρ c)).trans h2n
  have h3a2 : W3 m ρ c (Proc.devRef .tc main_arg2) = m ((c : Thread nD τ).loc main_arg2) := (Host.s1_keep_arg2 (W2 m ρ c)).trans h2a2
  have h3a4 : W3 m ρ c (Proc.devRef .tc main_arg4) = m ((c : Thread nD τ).loc main_arg4) := (Host.s1_keep_arg4 (W2 m ρ c)).trans h2a4
  have h3a5 : W3 m ρ c (Proc.devRef .tc main_arg5) = m ((c : Thread nD τ).loc main_arg5) := (Host.s1_keep_arg5 (W2 m ρ c)).trans h2a5
  -- at region 1's exit
  have h4o : W4 m ρ c (Proc.devRef .tc main_call0_v45)
      = mm h (agg h (m ((c : Thread nD τ).loc main_arg1)) (mm h (m ((c : Thread nD τ).loc main_arg0)) (m ((c : Thread nD τ).loc main_arg3)))) (m ((c : Thread nD τ).loc main_arg4)) :=
    (W4_arr m ρ c 2).trans ((Region1.final (V3 m ρ) h c).trans (by
      show mm h (W3 m ρ c (Proc.devRef .tc main_call0_v44)) (W3 m ρ c (Proc.devRef .tc main_arg4)) = _
      rw [h3o, h3a4]))
  have h4s : W4 m ρ c (Proc.devRef .tc main_call0_v3) = srcs h (m ((c : Thread nD τ).loc main_arg1)) := (W4_of_ne m ρ c main_call0_v3 (by decide)).trans h3s
  have h4t : W4 m ρ c (Proc.devRef .tc main_call0_v6) = tgts h (m ((c : Thread nD τ).loc main_arg1)) := (W4_of_ne m ρ c main_call0_v6 (by decide)).trans h3t
  have h4n : W4 m ρ c (Proc.devRef .tc main_call0_v29) = norm h (m ((c : Thread nD τ).loc main_arg1)) := (W4_of_ne m ρ c main_call0_v29 (by decide)).trans h3n
  have h4a2 : W4 m ρ c (Proc.devRef .tc main_arg2) = m ((c : Thread nD τ).loc main_arg2) := (W4_of_ne m ρ c main_arg2 (by decide)).trans h3a2
  have h4a5 : W4 m ρ c (Proc.devRef .tc main_arg5) = m ((c : Thread nD τ).loc main_arg5) := (W4_of_ne m ρ c main_arg5 (by decide)).trans h3a5
  -- after the second aggregation
  have h5o : W5 m ρ c (Proc.devRef .tc main_call0_v59)
      = agg h (m ((c : Thread nD τ).loc main_arg1)) (mm h (agg h (m ((c : Thread nD τ).loc main_arg1)) (mm h (m ((c : Thread nD τ).loc main_arg0)) (m ((c : Thread nD τ).loc main_arg3)))) (m ((c : Thread nD τ).loc main_arg4))) :=
    (Host.s2_out h (W4 m ρ c)).trans (by rw [h4n, h4s, h4t, h4o]; rfl)
  have h5s : W5 m ρ c (Proc.devRef .tc main_call0_v3) = srcs h (m ((c : Thread nD τ).loc main_arg1)) := (Host.s2_keep_v3 (W4 m ρ c)).trans h4s
  have h5t : W5 m ρ c (Proc.devRef .tc main_call0_v6) = tgts h (m ((c : Thread nD τ).loc main_arg1)) := (Host.s2_keep_v6 (W4 m ρ c)).trans h4t
  have h5n : W5 m ρ c (Proc.devRef .tc main_call0_v29) = norm h (m ((c : Thread nD τ).loc main_arg1)) := (Host.s2_keep_v29 (W4 m ρ c)).trans h4n
  have h5a2 : W5 m ρ c (Proc.devRef .tc main_arg2) = m ((c : Thread nD τ).loc main_arg2) := (Host.s2_keep_arg2 (W4 m ρ c)).trans h4a2
  have h5a5 : W5 m ρ c (Proc.devRef .tc main_arg5) = m ((c : Thread nD τ).loc main_arg5) := (Host.s2_keep_arg5 (W4 m ρ c)).trans h4a5
  -- at region 2's exit
  have h6o : W6 m ρ c (Proc.devRef .tc main_call0_v60)
      = mm h (leaky h (agg h (m ((c : Thread nD τ).loc main_arg1)) (mm h (agg h (m ((c : Thread nD τ).loc main_arg1)) (mm h (m ((c : Thread nD τ).loc main_arg0)) (m ((c : Thread nD τ).loc main_arg3)))) (m ((c : Thread nD τ).loc main_arg4))))) (m ((c : Thread nD τ).loc main_arg5)) :=
    (W6_arr m ρ c 2).trans ((Region2.final (V5 m ρ) h c).trans (by
      show mm h (leaky h (W5 m ρ c (Proc.devRef .tc main_call0_v59))) (W5 m ρ c (Proc.devRef .tc main_arg5)) = _
      rw [h5o, h5a5]))
  have h6s : W6 m ρ c (Proc.devRef .tc main_call0_v3) = srcs h (m ((c : Thread nD τ).loc main_arg1)) := (W6_of_ne m ρ c main_call0_v3 (by decide)).trans h5s
  have h6t : W6 m ρ c (Proc.devRef .tc main_call0_v6) = tgts h (m ((c : Thread nD τ).loc main_arg1)) := (W6_of_ne m ρ c main_call0_v6 (by decide)).trans h5t
  have h6n : W6 m ρ c (Proc.devRef .tc main_call0_v29) = norm h (m ((c : Thread nD τ).loc main_arg1)) := (W6_of_ne m ρ c main_call0_v29 (by decide)).trans h5n
  have h6a2 : W6 m ρ c (Proc.devRef .tc main_arg2) = m ((c : Thread nD τ).loc main_arg2) := (W6_of_ne m ρ c main_arg2 (by decide)).trans h5a2
  -- the last stretch
  refine (Host.s3_out h (W6 m ρ c)).trans ?_
  rw [h6a2, h6n, h6s, h6t, h6o]
  rfl

end Cert.KernelIdeal.Whole

end
-- ==== Proof.RefOps0.lean ====
/-
  The reference's statements 1 … 60 as a list of host operations, in order.

  Each printed statement contributes its operation; a call of a module-local function contributes the operations of
  the function's body over the buffers of that call (the select helper: a conversion, a broadcast, a select; the
  leaky rectifier: a zero, its broadcast, a comparison, a conversion of the slope, its broadcast, a product, a
  select).  The window of the program is the straight line of these operations, every operation touches buffers of
  the tensor core only, and every operation determines its result.
-/
import proofs.«104968_j30657476559416_2_alg».proof.Proof.Gen.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The operations of statements 1 … 60, in order (62 of them). -/
abbrev ops0 : List (HloOp τ sig (Elt F)) :=
  [ StableHlo.nullary main_v0 (iotaInDim S100000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.binary main_arg0 main_arg3 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x3F800000#32),
    StableHlo.unary main_cst main_v8 (broadcastInDim S740000 ![] bcast_S_S740000 : (⟨S_, .f32⟩ : BufTy).Contents (Elt F) → (⟨S740000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S740000x1 ![0] bcast_S740000_S740000x1_0 : (⟨S740000, .i32⟩ : BufTy).Contents (Elt F) → (⟨S740000x1, .i32⟩ : BufTy).Contents (Elt F)),
    StableHlo.ternary main_v9 main_v10 main_v8 main_v11 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v13 : StableHlo.TRef sig ⟨S100000, .i1⟩) (.of main_v14 : StableHlo.TRef sig ⟨S100000, .f32⟩) main_call0.v1 main_call0.v2 select,
    StableHlo.nullary main_c (constantI S_ 32 0#32),
    StableHlo.unary main_c main_v16 (broadcastInDim S740000 ![] bcast_S_S740000 : (⟨S_, .i32⟩ : BufTy).Contents (Elt F) → (⟨S740000, .i32⟩ : BufTy).Contents (Elt F)),
    StableHlo.binary main_v3 main_v16 main_v17 (cmpi .slt : (⟨S740000, .i32⟩ : BufTy).Contents (Elt F) → (⟨S740000, .i32⟩ : BufTy).Contents (Elt F) → (⟨S740000, .i1⟩ : BufTy).Contents (Elt F)),
    StableHlo.nullary main_c_3 (constantI S_ 32 100000#32),
    StableHlo.unary main_c_3 main_v18 (broadcastInDim S740000 ![] bcast_S_S740000 : (⟨S_, .i32⟩ : BufTy).Contents (Elt F) → (⟨S740000, .i32⟩ : BufTy).Contents (Elt F)),
    StableHlo.binary main_v3 main_v18 main_v19 (addi : (⟨S740000, .i32⟩ : BufTy).Contents (Elt F) → (⟨S740000, .i32⟩ : BufTy).Contents (Elt F) → (⟨S740000, .i32⟩ : BufTy).Contents (Elt F)),
    StableHlo.ternary main_v17 main_v19 main_v3 main_v20 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v20 main_v21 (broadcastInDim S740000x1 ![0] bcast_S740000_S740000x1_0 : (⟨S740000, .i32⟩ : BufTy).Contents (Elt F) → (⟨S740000x1, .i32⟩ : BufTy).Contents (Elt F)),
    StableHlo.binary main_v15 main_v21 main_v22 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_4 (constantI S_ 32 0#32),
    StableHlo.unary main_c_4 main_v23 (broadcastInDim S740000 ![] bcast_S_S740000 : (⟨S_, .i32⟩ : BufTy).Contents (Elt F) → (⟨S740000, .i32⟩ : BufTy).Contents (Elt F)),
    StableHlo.binary main_v6 main_v23 main_v24 (cmpi .slt : (⟨S740000, .i32⟩ : BufTy).Contents (Elt F) → (⟨S740000, .i32⟩ : BufTy).Contents (Elt F) → (⟨S740000, .i1⟩ : BufTy).Contents (Elt F)),
    StableHlo.nullary main_c_5 (constantI S_ 32 100000#32),
    StableHlo.unary main_c_5 main_v25 (broadcastInDim S740000 ![] bcast_S_S740000 : (⟨S_, .i32⟩ : BufTy).Contents (Elt F) → (⟨S740000, .i32⟩ : BufTy).Contents (Elt F)),
    StableHlo.binary main_v6 main_v25 main_v26 (addi : (⟨S740000, .i32⟩ : BufTy).Contents (Elt F) → (⟨S740000, .i32⟩ : BufTy).Contents (Elt F) → (⟨S740000, .i32⟩ : BufTy).Contents (Elt F)),
    StableHlo.ternary main_v24 main_v26 main_v6 main_v27 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v27 main_v28 (broadcastInDim S740000x1 ![0] bcast_S740000_S740000x1_0 : (⟨S740000, .i32⟩ : BufTy).Contents (Elt F) → (⟨S740000x1, .i32⟩ : BufTy).Contents (Elt F)),
    StableHlo.binary main_v15 main_v28 main_v29 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v22 main_v29 main_v30 (mulf : (⟨S740000, .f32⟩ : BufTy).Contents (Elt F) → (⟨S740000, .f32⟩ : BufTy).Contents (Elt F) → (⟨S740000, .f32⟩ : BufTy).Contents (Elt F)),
    StableHlo.unary main_v30 main_v31 (broadcastInDim S740000x1 ![0] bcast_S740000_S740000x1_0 : (⟨S740000, .f32⟩ : BufTy).Contents (Elt F) → (⟨S740000x1, .f32⟩ : BufTy).Contents (Elt F)),
    StableHlo.nullary main_c_6 (constantI S_ 32 0#32),
    StableHlo.unary main_c_6 main_v32 (broadcastInDim S740000 ![] bcast_S_S740000 : (⟨S_, .i32⟩ : BufTy).Contents (Elt F) → (⟨S740000, .i32⟩ : BufTy).Contents (Elt F)),
    StableHlo.binary main_v3 main_v32 main_v33 (cmpi .slt : (⟨S740000, .i32⟩ : BufTy).Contents (Elt F) → (⟨S740000, .i32⟩ : BufTy).Contents (Elt F) → (⟨S740000, .i1⟩ : BufTy).Contents (Elt F)),
    StableHlo.nullary main_c_7 (constantI S_ 32 100000#32),
    StableHlo.unary main_c_7 main_v34 (broadcastInDim S740000 ![] bcast_S_S740000 : (⟨S_, .i32⟩ : BufTy).Contents (Elt F) → (⟨S740000, .i32⟩ : BufTy).Contents (Elt F)),
    StableHlo.binary main_v3 main_v34 main_v35 (addi : (⟨S740000, .i32⟩ : BufTy).Contents (Elt F) → (⟨S740000, .i32⟩ : BufTy).Contents (Elt F) → (⟨S740000, .i32⟩ : BufTy).Contents (Elt F)),
    StableHlo.ternary main_v33 main_v35 main_v3 main_v36 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v36 main_v37 (broadcastInDim S740000x1 ![0] bcast_S740000_S740000x1_0 : (⟨S740000, .i32⟩ : BufTy).Contents (Elt F) → (⟨S740000x1, .i32⟩ : BufTy).Contents (Elt F)),
    StableHlo.binary main_v7 main_v37 main_v38 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v31 main_v39 (broadcastInDim S740000x128 ![0, 1] bcast_S740000x1_S740000x128_0_1 : (⟨S740000x1, .f32⟩ : BufTy).Contents (Elt F) → (⟨S740000x128, .f32⟩ : BufTy).Contents (Elt F)),
    StableHlo.binary main_v39 main_v38 main_v40 (mulf : (⟨S740000x128, .f32⟩ : BufTy).Contents (Elt F) → (⟨S740000x128, .f32⟩ : BufTy).Contents (Elt F) → (⟨S740000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S740000x1 ![0] bcast_S740000_S740000x1_0 : (⟨S740000, .i32⟩ : BufTy).Contents (Elt F) → (⟨S740000x1, .i32⟩ : BufTy).Contents (Elt F)),
    StableHlo.ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.binary main_v43 main_arg4 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_9 (constant S_ .f32 0x3F800000#32),
    StableHlo.unary main_cst_9 main_v45 (broadcastInDim S740000 ![] bcast_S_S740000 : (⟨S_, .f32⟩ : BufTy).Contents (Elt F) → (⟨S740000, .f32⟩ : BufTy).Contents (Elt F)),
    StableHlo.nullary main_cst_10 (constant S_ .f32 0x00000000#32),
    StableHlo.unary main_cst_10 main_v46 (broadcastInDim S100000 ![] bcast_S_S100000 : (⟨S_, .f32⟩ : BufTy).Contents (Elt F) → (⟨S100000, .f32⟩ : BufTy).Contents (Elt F)) ]

set_option maxRecDepth 4096 in
set_option maxHeartbeats 4000000 in
/-- The window is that straight line: the called functions' bodies unfolded at their calls, sequencing reassociated. -/
theorem main_part0_eq (c : Dev nD) : main_part0 (F := F) c = seq ops0 := by
  simp only [main_part0, fn_where.body, seq, bind_assoc, pure_bind]
  rfl

/-- Every operation touches buffers of the tensor core only. -/
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., nullary_bufs_sub .., unary_bufs_sub ..⟩

/-- Every operation determines its result. -/
theorem ops0_fresh : ∀ op ∈ (ops0 : List (HloOp τ sig (Elt F))), op.fresh = ∅ := by
  intro _ h; (repeat (cases h with | head => rfl | tail _ h => ?_)); exact nomatch h

end Cert.ReferenceIdeal.RefRun

end
-- ==== Proof.RefOps1.lean ====
/-
  The reference's statements 61 … 120 as a list of host operations, in order.

  Each printed statement contributes its operation; a call of a module-local function contributes the operations of
  the function's body over the buffers of that call (the select helper: a conversion, a broadcast, a select; the
  leaky rectifier: a zero, its broadcast, a comparison, a conversion of the slope, its broadcast, a product, a
  select).  The window of the program is the straight line of these operations, every operation touches buffers of
  the tensor core only, and every operation determines its result.
-/
import proofs.«104968_j30657476559416_2_alg».proof.Proof.Gen.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The operations of statements 61 … 120, in order (70 of them). -/
abbrev ops1 : List (HloOp τ sig (Elt F)) :=
  [ StableHlo.unary main_v6 main_v47 (broadcastInDim S740000x1 ![0] bcast_S740000_S740000x1_0 : (⟨S740000, .i32⟩ : BufTy).Contents (Elt F) → (⟨S740000x1, .i32⟩ : BufTy).Contents (Elt F)),
    StableHlo.ternary main_v46 main_v47 main_v45 main_v48 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_11 (constant S_ .f32 0x00000000#32),
    StableHlo.unary main_cst_11 main_v49 (broadcastInDim S100000 ![] bcast_S_S100000 : (⟨S_, .f32⟩ : BufTy).Contents (Elt F) → (⟨S100000, .f32⟩ : BufTy).Contents (Elt F)),
    StableHlo.binary main_v48 main_v49 main_v50 (cmpf .ogt : (⟨S100000, .f32⟩ : BufTy).Contents (Elt F) → (⟨S100000, .f32⟩ : BufTy).Contents (Elt F) → (⟨S100000, .i1⟩ : BufTy).Contents (Elt F)),
    StableHlo.unary main_v48 main_v51 (Host.rsqrt : (⟨S100000, .f32⟩ : BufTy).Contents (Elt F) → (⟨S100000, .f32⟩ : BufTy).Contents (Elt F)),
    StableHlo.nullary main_cst_12 (constant S_ .f32 0x00000000#32),
    StableHlo.TRef.unary (.of main_cst_12 : StableHlo.TRef sig ⟨S_, .f32⟩) main_call1.v0 id,
    StableHlo.TRef.unary main_call1.v0 main_call1.v1 (broadcastInDim S100000 ![] bcast_S_S100000),
    StableHlo.TRef.ternary (.of main_v50 : StableHlo.TRef sig ⟨S100000, .i1⟩) (.of main_v51 : StableHlo.TRef sig ⟨S100000, .f32⟩) main_call1.v1 main_call1.v2 select,
    StableHlo.nullary main_c_13 (constantI S_ 32 0#32),
    StableHlo.unary main_c_13 main_v53 (broadcastInDim S740000 ![] bcast_S_S740000 : (⟨S_, .i32⟩ : BufTy).Contents (Elt F) → (⟨S740000, .i32⟩ : BufTy).Contents (Elt F)),
    StableHlo.binary main_v3 main_v53 main_v54 (cmpi .slt : (⟨S740000, .i32⟩ : BufTy).Contents (Elt F) → (⟨S740000, .i32⟩ : BufTy).Contents (Elt F) → (⟨S740000, .i1⟩ : BufTy).Contents (Elt F)),
    StableHlo.nullary main_c_14 (constantI S_ 32 100000#32),
    StableHlo.unary main_c_14 main_v55 (broadcastInDim S740000 ![] bcast_S_S740000 : (⟨S_, .i32⟩ : BufTy).Contents (Elt F) → (⟨S740000, .i32⟩ : BufTy).Contents (Elt F)),
    StableHlo.binary main_v3 main_v55 main_v56 (addi : (⟨S740000, .i32⟩ : BufTy).Contents (Elt F) → (⟨S740000, .i32⟩ : BufTy).Contents (Elt F) → (⟨S740000, .i32⟩ : BufTy).Contents (Elt F)),
    StableHlo.ternary main_v54 main_v56 main_v3 main_v57 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v57 main_v58 (broadcastInDim S740000x1 ![0] bcast_S740000_S740000x1_0 : (⟨S740000, .i32⟩ : BufTy).Contents (Elt F) → (⟨S740000x1, .i32⟩ : BufTy).Contents (Elt F)),
    StableHlo.binary main_v52 main_v58 main_v59 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_15 (constantI S_ 32 0#32),
    StableHlo.unary main_c_15 main_v60 (broadcastInDim S740000 ![] bcast_S_S740000 : (⟨S_, .i32⟩ : BufTy).Contents (Elt F) → (⟨S740000, .i32⟩ : BufTy).Contents (Elt F)),
    StableHlo.binary main_v6 main_v60 main_v61 (cmpi .slt : (⟨S740000, .i32⟩ : BufTy).Contents (Elt F) → (⟨S740000, .i32⟩ : BufTy).Contents (Elt F) → (⟨S740000, .i1⟩ : BufTy).Contents (Elt F)),
    StableHlo.nullary main_c_16 (constantI S_ 32 100000#32),
    StableHlo.unary main_c_16 main_v62 (broadcastInDim S740000 ![] bcast_S_S740000 : (⟨S_, .i32⟩ : BufTy).Contents (Elt F) → (⟨S740000, .i32⟩ : BufTy).Contents (Elt F)),
    StableHlo.binary main_v6 main_v62 main_v63 (addi : (⟨S740000, .i32⟩ : BufTy).Contents (Elt F) → (⟨S740000, .i32⟩ : BufTy).Contents (Elt F) → (⟨S740000, .i32⟩ : BufTy).Contents (Elt F)),
    StableHlo.ternary main_v61 main_v63 main_v6 main_v64 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v64 main_v65 (broadcastInDim S740000x1 ![0] bcast_S740000_S740000x1_0 : (⟨S740000, .i32⟩ : BufTy).Contents (Elt F) → (⟨S740000x1, .i32⟩ : BufTy).Contents (Elt F)),
    StableHlo.binary main_v52 main_v65 main_v66 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v59 main_v66 main_v67 (mulf : (⟨S740000, .f32⟩ : BufTy).Contents (Elt F) → (⟨S740000, .f32⟩ : BufTy).Contents (Elt F) → (⟨S740000, .f32⟩ : BufTy).Contents (Elt F)),
    StableHlo.unary main_v67 main_v68 (broadcastInDim S740000x1 ![0] bcast_S740000_S740000x1_0 : (⟨S740000, .f32⟩ : BufTy).Contents (Elt F) → (⟨S740000x1, .f32⟩ : BufTy).Contents (Elt F)),
    StableHlo.nullary main_c_17 (constantI S_ 32 0#32),
    StableHlo.unary main_c_17 main_v69 (broadcastInDim S740000 ![] bcast_S_S740000 : (⟨S_, .i32⟩ : BufTy).Contents (Elt F) → (⟨S740000, .i32⟩ : BufTy).Contents (Elt F)),
    StableHlo.binary main_v3 main_v69 main_v70 (cmpi .slt : (⟨S740000, .i32⟩ : BufTy).Contents (Elt F) → (⟨S740000, .i32⟩ : BufTy).Contents (Elt F) → (⟨S740000, .i1⟩ : BufTy).Contents (Elt F)),
    StableHlo.nullary main_c_18 (constantI S_ 32 100000#32),
    StableHlo.unary main_c_18 main_v71 (broadcastInDim S740000 ![] bcast_S_S740000 : (⟨S_, .i32⟩ : BufTy).Contents (Elt F) → (⟨S740000, .i32⟩ : BufTy).Contents (Elt F)),
    StableHlo.binary main_v3 main_v71 main_v72 (addi : (⟨S740000, .i32⟩ : BufTy).Contents (Elt F) → (⟨S740000, .i32⟩ : BufTy).Contents (Elt F) → (⟨S740000, .i32⟩ : BufTy).Contents (Elt F)),
    StableHlo.ternary main_v70 main_v72 main_v3 main_v73 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v73 main_v74 (broadcastInDim S740000x1 ![0] bcast_S740000_S740000x1_0 : (⟨S740000, .i32⟩ : BufTy).Contents (Elt F) → (⟨S740000x1, .i32⟩ : BufTy).Contents (Elt F)),
    StableHlo.binary main_v44 main_v74 main_v75 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v68 main_v76 (broadcastInDim S740000x128 ![0, 1] bcast_S740000x1_S740000x128_0_1 : (⟨S740000x1, .f32⟩ : BufTy).Contents (Elt F) → (⟨S740000x128, .f32⟩ : BufTy).Contents (Elt F)),
    StableHlo.binary main_v76 main_v75 main_v77 (mulf : (⟨S740000x128, .f32⟩ : BufTy).Contents (Elt F) → (⟨S740000x128, .f32⟩ : BufTy).Contents (Elt F) → (⟨S740000x128, .f32⟩ : BufTy).Contents (Elt F)),
    StableHlo.nullary main_cst_19 (constant S_ .f32 0x00000000#32),
    StableHlo.unary main_cst_19 main_v78 (broadcastInDim S100000x128 ![] bcast_S_S100000x128 : (⟨S_, .f32⟩ : BufTy).Contents (Elt F) → (⟨S100000x128, .f32⟩ : BufTy).Contents (Elt F)),
    StableHlo.unary main_v6 main_v79 (broadcastInDim S740000x1 ![0] bcast_S740000_S740000x1_0 : (⟨S740000, .i32⟩ : BufTy).Contents (Elt F) → (⟨S740000x1, .i32⟩ : BufTy).Contents (Elt F)),
    StableHlo.ternary main_v78 main_v79 main_v77 main_v80 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.nullary main_cst_20 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v80 : StableHlo.TRef sig ⟨S100000x128, .f32⟩) main_call2.v0 main_call2.v1 (cmpf .oge),
    StableHlo.TRef.unary (.of main_cst_20 : StableHlo.TRef sig ⟨S_, .f32⟩) main_call2.v2 id,
    StableHlo.TRef.unary main_call2.v2 main_call2.v3 (broadcastInDim S100000x128 ![] bcast_S_S100000x128),
    StableHlo.TRef.binary main_call2.v3 (.of main_v80 : StableHlo.TRef sig ⟨S100000x128, .f32⟩) main_call2.v4 mulf,
    StableHlo.TRef.ternary main_call2.v1 (.of main_v80 : StableHlo.TRef sig ⟨S100000x128, .f32⟩) main_call2.v4 main_call2.call0.v0 select,
    StableHlo.binary main_v81 main_arg5 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_21 (constant S_ .f32 0x3F800000#32),
    StableHlo.unary main_cst_21 main_v83 (broadcastInDim S740000 ![] bcast_S_S740000 : (⟨S_, .f32⟩ : BufTy).Contents (Elt F) → (⟨S740000, .f32⟩ : BufTy).Contents (Elt F)),
    StableHlo.nullary main_cst_22 (constant S_ .f32 0x00000000#32),
    StableHlo.unary main_cst_22 main_v84 (broadcastInDim S100000 ![] bcast_S_S100000 : (⟨S_, .f32⟩ : BufTy).Contents (Elt F) → (⟨S100000, .f32⟩ : BufTy).Contents (Elt F)),
    StableHlo.unary main_v6 main_v85 (broadcastInDim S740000x1 ![0] bcast_S740000_S740000x1_0 : (⟨S740000, .i32⟩ : BufTy).Contents (Elt F) → (⟨S740000x1, .i32⟩ : BufTy).Contents (Elt F)),
    StableHlo.ternary main_v84 main_v85 main_v83 main_v86 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_23 (constant S_ .f32 0x00000000#32),
    StableHlo.unary main_cst_23 main_v87 (broadcastInDim S100000 ![] bcast_S_S100000 : (⟨S_, .f32⟩ : BufTy).Contents (Elt F) → (⟨S100000, .f32⟩ : BufTy).Contents (Elt F)),
    StableHlo.binary main_v86 main_v87 main_v88 (cmpf .ogt : (⟨S100000, .f32⟩ : BufTy).Contents (Elt F) → (⟨S100000, .f32⟩ : BufTy).Contents (Elt F) → (⟨S100000, .i1⟩ : BufTy).Contents (Elt F)),
    StableHlo.unary main_v86 main_v89 (Host.rsqrt : (⟨S100000, .f32⟩ : BufTy).Contents (Elt F) → (⟨S100000, .f32⟩ : BufTy).Contents (Elt F)),
    StableHlo.nullary main_cst_24 (constant S_ .f32 0x00000000#32),
    StableHlo.TRef.unary (.of main_cst_24 : StableHlo.TRef sig ⟨S_, .f32⟩) main_call3.v0 id,
    StableHlo.TRef.unary main_call3.v0 main_call3.v1 (broadcastInDim S100000 ![] bcast_S_S100000),
    StableHlo.TRef.ternary (.of main_v88 : StableHlo.TRef sig ⟨S100000, .i1⟩) (.of main_v89 : StableHlo.TRef sig ⟨S100000, .f32⟩) main_call3.v1 main_call3.v2 select,
    StableHlo.nullary main_c_25 (constantI S_ 32 0#32),
    StableHlo.unary main_c_25 main_v91 (broadcastInDim S740000 ![] bcast_S_S740000 : (⟨S_, .i32⟩ : BufTy).Contents (Elt F) → (⟨S740000, .i32⟩ : BufTy).Contents (Elt F)) ]

set_option maxRecDepth 4096 in
set_option maxHeartbeats 4000000 in
/-- The window is that straight line: the called functions' bodies unfolded at their calls, sequencing reassociated. -/
theorem main_part1_eq (c : Dev nD) : main_part1 (F := F) c = seq ops1 := by
  simp only [main_part1, fn_where.body, fn_leaky_relu.body, fn_where_0.body, seq, bind_assoc, pure_bind]
  rfl

/-- Every operation touches buffers of the tensor core only. -/
theorem ops1_sub : (ops1 : List (HloOp τ sig (Elt F))).Forall fun op => op.bufs ⊆ tcRefs τ sig :=
  ⟨unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub ..⟩

/-- Every operation determines its result. -/
theorem ops1_fresh : ∀ op ∈ (ops1 : List (HloOp τ sig (Elt F))), op.fresh = ∅ := by
  intro _ h; (repeat (cases h with | head => rfl | tail _ h => ?_)); exact nomatch h

end Cert.ReferenceIdeal.RefRun

end
-- ==== Proof.RefOps2.lean ====
/-
  The reference's statements 121 … 158 as a list of host operations, in order.

  Each printed statement contributes its operation; a call of a module-local function contributes the operations of
  the function's body over the buffers of that call (the select helper: a conversion, a broadcast, a select; the
  leaky rectifier: a zero, its broadcast, a comparison, a conversion of the slope, its broadcast, a product, a
  select).  The window of the program is the straight line of these operations, every operation touches buffers of
  the tensor core only, and every operation determines its result.
-/
import proofs.«104968_j30657476559416_2_alg».proof.Proof.Gen.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The operations of statements 121 … 158, in order (37 of them). -/
abbrev ops2 : List (HloOp τ sig (Elt F)) :=
  [ StableHlo.binary main_v3 main_v91 main_v92 (cmpi .slt : (⟨S740000, .i32⟩ : BufTy).Contents (Elt F) → (⟨S740000, .i32⟩ : BufTy).Contents (Elt F) → (⟨S740000, .i1⟩ : BufTy).Contents (Elt F)),
    StableHlo.nullary main_c_26 (constantI S_ 32 100000#32),
    StableHlo.unary main_c_26 main_v93 (broadcastInDim S740000 ![] bcast_S_S740000 : (⟨S_, .i32⟩ : BufTy).Contents (Elt F) → (⟨S740000, .i32⟩ : BufTy).Contents (Elt F)),
    StableHlo.binary main_v3 main_v93 main_v94 (addi : (⟨S740000, .i32⟩ : BufTy).Contents (Elt F) → (⟨S740000, .i32⟩ : BufTy).Contents (Elt F) → (⟨S740000, .i32⟩ : BufTy).Contents (Elt F)),
    StableHlo.ternary main_v92 main_v94 main_v3 main_v95 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v95 main_v96 (broadcastInDim S740000x1 ![0] bcast_S740000_S740000x1_0 : (⟨S740000, .i32⟩ : BufTy).Contents (Elt F) → (⟨S740000x1, .i32⟩ : BufTy).Contents (Elt F)),
    StableHlo.binary main_v90 main_v96 main_v97 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_27 (constantI S_ 32 0#32),
    StableHlo.unary main_c_27 main_v98 (broadcastInDim S740000 ![] bcast_S_S740000 : (⟨S_, .i32⟩ : BufTy).Contents (Elt F) → (⟨S740000, .i32⟩ : BufTy).Contents (Elt F)),
    StableHlo.binary main_v6 main_v98 main_v99 (cmpi .slt : (⟨S740000, .i32⟩ : BufTy).Contents (Elt F) → (⟨S740000, .i32⟩ : BufTy).Contents (Elt F) → (⟨S740000, .i1⟩ : BufTy).Contents (Elt F)),
    StableHlo.nullary main_c_28 (constantI S_ 32 100000#32),
    StableHlo.unary main_c_28 main_v100 (broadcastInDim S740000 ![] bcast_S_S740000 : (⟨S_, .i32⟩ : BufTy).Contents (Elt F) → (⟨S740000, .i32⟩ : BufTy).Contents (Elt F)),
    StableHlo.binary main_v6 main_v100 main_v101 (addi : (⟨S740000, .i32⟩ : BufTy).Contents (Elt F) → (⟨S740000, .i32⟩ : BufTy).Contents (Elt F) → (⟨S740000, .i32⟩ : BufTy).Contents (Elt F)),
    StableHlo.ternary main_v99 main_v101 main_v6 main_v102 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v102 main_v103 (broadcastInDim S740000x1 ![0] bcast_S740000_S740000x1_0 : (⟨S740000, .i32⟩ : BufTy).Contents (Elt F) → (⟨S740000x1, .i32⟩ : BufTy).Contents (Elt F)),
    StableHlo.binary main_v90 main_v103 main_v104 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v97 main_v104 main_v105 (mulf : (⟨S740000, .f32⟩ : BufTy).Contents (Elt F) → (⟨S740000, .f32⟩ : BufTy).Contents (Elt F) → (⟨S740000, .f32⟩ : BufTy).Contents (Elt F)),
    StableHlo.unary main_v105 main_v106 (broadcastInDim S740000x1 ![0] bcast_S740000_S740000x1_0 : (⟨S740000, .f32⟩ : BufTy).Contents (Elt F) → (⟨S740000x1, .f32⟩ : BufTy).Contents (Elt F)),
    StableHlo.nullary main_c_29 (constantI S_ 32 0#32),
    StableHlo.unary main_c_29 main_v107 (broadcastInDim S740000 ![] bcast_S_S740000 : (⟨S_, .i32⟩ : BufTy).Contents (Elt F) → (⟨S740000, .i32⟩ : BufTy).Contents (Elt F)),
    StableHlo.binary main_v3 main_v107 main_v108 (cmpi .slt : (⟨S740000, .i32⟩ : BufTy).Contents (Elt F) → (⟨S740000, .i32⟩ : BufTy).Contents (Elt F) → (⟨S740000, .i1⟩ : BufTy).Contents (Elt F)),
    StableHlo.nullary main_c_30 (constantI S_ 32 100000#32),
    StableHlo.unary main_c_30 main_v109 (broadcastInDim S740000 ![] bcast_S_S740000 : (⟨S_, .i32⟩ : BufTy).Contents (Elt F) → (⟨S740000, .i32⟩ : BufTy).Contents (Elt F)),
    StableHlo.binary main_v3 main_v109 main_v110 (addi : (⟨S740000, .i32⟩ : BufTy).Contents (Elt F) → (⟨S740000, .i32⟩ : BufTy).Contents (Elt F) → (⟨S740000, .i32⟩ : BufTy).Contents (Elt F)),
    StableHlo.ternary main_v108 main_v110 main_v3 main_v111 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v111 main_v112 (broadcastInDim S740000x1 ![0] bcast_S740000_S740000x1_0 : (⟨S740000, .i32⟩ : BufTy).Contents (Elt F) → (⟨S740000x1, .i32⟩ : BufTy).Contents (Elt F)),
    StableHlo.binary main_v82 main_v112 main_v113 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v106 main_v114 (broadcastInDim S740000x128 ![0, 1] bcast_S740000x1_S740000x128_0_1 : (⟨S740000x1, .f32⟩ : BufTy).Contents (Elt F) → (⟨S740000x128, .f32⟩ : BufTy).Contents (Elt F)),
    StableHlo.binary main_v114 main_v113 main_v115 (mulf : (⟨S740000x128, .f32⟩ : BufTy).Contents (Elt F) → (⟨S740000x128, .f32⟩ : BufTy).Contents (Elt F) → (⟨S740000x128, .f32⟩ : BufTy).Contents (Elt F)),
    StableHlo.nullary main_cst_31 (constant S_ .f32 0x00000000#32),
    StableHlo.unary main_cst_31 main_v116 (broadcastInDim S100000x128 ![] bcast_S_S100000x128 : (⟨S_, .f32⟩ : BufTy).Contents (Elt F) → (⟨S100000x128, .f32⟩ : BufTy).Contents (Elt F)),
    StableHlo.unary main_v6 main_v117 (broadcastInDim S740000x1 ![0] bcast_S740000_S740000x1_0 : (⟨S740000, .i32⟩ : BufTy).Contents (Elt F) → (⟨S740000x1, .i32⟩ : BufTy).Contents (Elt F)),
    StableHlo.ternary main_v116 main_v117 main_v115 main_v118 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.nullary main_cst_32 (constant S_ .f32 0x00000000#32),
    StableHlo.unary main_cst_32 main_v119 (broadcastInDim S512x128 ![] bcast_S_S512x128 : (⟨S_, .f32⟩ : BufTy).Contents (Elt F) → (⟨S512x128, .f32⟩ : BufTy).Contents (Elt F)),
    StableHlo.unary main_arg2 main_v120 (broadcastInDim S100000x1 ![0] bcast_S100000_S100000x1_0 : (⟨S100000, .i32⟩ : BufTy).Contents (Elt F) → (⟨S100000x1, .i32⟩ : BufTy).Contents (Elt F)),
    StableHlo.ternary main_v119 main_v120 main_v118 main_v121 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)) ]

set_option maxRecDepth 4096 in
set_option maxHeartbeats 4000000 in
/-- The window is that straight line: the called functions' bodies unfolded at their calls, sequencing reassociated. -/
theorem main_part2_eq (c : Dev nD) : main_part2 (F := F) c = seq ops2 := by
  simp only [main_part2, seq, bind_assoc, pure_bind]

/-- Every operation touches buffers of the tensor core only. -/
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩

/-- Every operation determines its result. -/
theorem ops2_fresh : ∀ op ∈ (ops2 : List (HloOp τ sig (Elt F))), op.fresh = ∅ := by
  intro _ h; (repeat (cases h with | head => rfl | tail _ h => ?_)); exact nomatch h

end Cert.ReferenceIdeal.RefRun

end
-- ==== Proof.RefBase.lean ====
/-
  What the reference's stretches are stated with.

  The shape side conditions of the specification are the program's own stated facts.  The edge weights of the
  specification are a function of the edge list; a stretch of the program that recomputes them reads the two vectors
  of edge ends from buffers, so the same formulas are restated here over arbitrary vectors of sources and targets:
  the in-degree (one added at every target), its inverse square root where it is positive (else zero), and the
  product of that at the two ends of every edge.  At the edge ends of an edge list they are the specification's.
  Last, a buffer that none of a line's operations writes is left alone by the line: the side condition is stated over
  a list of references holding every reference written.
-/
import proofs.«104968_j30657476559416_2_alg».proof.Proof.Gen.ReferenceIdeal
import proofs.«104968_j30657476559416_2_alg».proof.Proof.Spec
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts
open Cert.Spec (S2xE SM SN SNxD SMx1 SMxD S0)

/-- The shape side conditions of the specification, each one of the program's stated facts. -/
theorem specFacts : Cert.Spec.Facts where
  sl0 := slices_S2x640000_S1x640000_0_0
  sl1 := slices_S2x640000_S1x640000_1_0
  sc := shapeCasts_S1x640000_S640000
  cat := concatenates_S640000_S100000_S740000_d0
  b_m := bcast_S_S740000
  b_n := bcast_S_S100000
  b_m1 := bcast_S740000_S740000x1_0
  b_md := bcast_S740000x1_S740000x128_0_1
  b_nd := bcast_S_S100000x128
  b_gd := bcast_S_S512x128
  b_n1 := bcast_S100000_S100000x1_0
  dot := dot_S100000x128_S128x128_S100000x128_1_0_0_1_n_n_wf
  scat1 := scatter_S100000_S740000x1_S740000_n_0_0_1_wf
  gath1 := gather_S100000_S740000x1_S740000_n_0_n_n_0_1_1_wf
  gath2 := gather_S100000x128_S740000x1_S740000x128_1_0_n_n_0_1_1128_wf
  scat2 := scatter_S100000x128_S740000x1_S740000x128_1_0_0_1_wf
  scat3 := scatter_S512x128_S100000x1_S100000x128_1_0_0_1_wf

variable (h : Cert.Spec.Facts)

/-- How many of the given edge ends are each node. -/
def degOf (tgt : IVec SM 32) : FVec Ideal SN .f32 :=
  Host.scatterAdd (Cert.Spec.scatN h) (broadcastInDim SN ![] h.b_n (constant S0 .f32 0x00000000#32))
    (broadcastInDim SMx1 ![0] h.b_m1 tgt) (broadcastInDim SM ![] h.b_m (constant S0 .f32 0x3F800000#32))

/-- That count to the power -1/2 where it is positive, else zero. -/
def dinvOf (tgt : IVec SM 32) : FVec Ideal SN .f32 :=
  select (cmpf .ogt (degOf h tgt) (broadcastInDim SN ![] h.b_n (constant S0 .f32 0x00000000#32))) (Host.rsqrt (degOf h tgt))
    (broadcastInDim SN ![] h.b_n (id (constant S0 .f32 0x00000000#32)))

/-- The weight of each edge over given ends: the product of `dinvOf` at its source and at its target. -/
def normOf (src tgt : IVec SM 32) : FVec Ideal SM .f32 :=
  mulf (Host.gather (Cert.Spec.gathN h) (dinvOf h tgt) (broadcastInDim SMx1 ![0] h.b_m1 (Cert.Spec.wrap h src)))
    (Host.gather (Cert.Spec.gathN h) (dinvOf h tgt) (broadcastInDim SMx1 ![0] h.b_m1 (Cert.Spec.wrap h tgt)))

/-- At the edge ends of an edge list these are the specification's weights. -/
theorem norm_eq (ei : IVec S2xE 32) : Cert.Spec.norm h ei = normOf h (Cert.Spec.srcs h ei) (Cert.Spec.tgts h ei) := rfl

/-- The specification's aggregation, with the weights spelt over the edge ends. -/
theorem agg_eq (ei : IVec S2xE 32) (xw : FVec Ideal SNxD .f32) :
    Cert.Spec.aggOf h (normOf h (Cert.Spec.srcs h ei) (Cert.Spec.tgts h ei)) (Cert.Spec.srcs h ei) (Cert.Spec.tgts h ei) xw
      = Cert.Spec.agg h ei xw := rfl

/-- A reference of a list is, as a device buffer, in the list's set of device buffers. -/
theorem writes_sub_of_mem {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

end Cert.ReferenceIdeal.RefRun

end
-- ==== Proof.RefS1.lean ====
/-
  The reference's first stretch: the edge ends and the first product.

  The sources and the targets are the two rows of the edge list, each followed by the self loops 0, 1, …; the first layer's
  product is the node features times the first weight matrix.
  The stretch is stated for arbitrary contents of the buffers it starts from: what its result buffer holds afterwards
  is the specification's function of what the buffers it reads held before, and a buffer it does not write holds
  what it held.
-/
import proofs.«104968_j30657476559416_2_alg».proof.Proof.RefBase

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

set_option Elab.async false

section
variable {F : FTy → Type} [FloatOps F]
/-- The stretch's 8 operations, in order. -/
abbrev S1 : List (HloOp τ sig (Elt F)) :=
  [ StableHlo.nullary main_v0 (iotaInDim S100000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.binary main_arg0 main_arg3 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
end

/-- Every reference the stretch writes. -/
abbrev W1 : List (Ref sig .tc) :=
  [main_v0, main_v1, main_v2, main_v3, main_v4, main_v5, main_v6, main_v7]

set_option maxRecDepth 8192 in
set_option maxHeartbeats 1000000 in
/-- What the stretch leaves in the buffer, over what it read. -/
theorem S1_v3 (V : Valuation τ sig (Elt Ideal)) :
    after (S1 (F := Ideal)) V (main_v3 : DevRef τ sig) = Cert.Spec.srcs specFacts (V (main_arg1 : DevRef τ sig)) := by
  after_results_simp
  rfl

set_option maxRecDepth 8192 in
set_option maxHeartbeats 1000000 in
/-- What the stretch leaves in the buffer, over what it read. -/
theorem S1_v6 (V : Valuation τ sig (Elt Ideal)) :
    after (S1 (F := Ideal)) V (main_v6 : DevRef τ sig) = Cert.Spec.tgts specFacts (V (main_arg1 : DevRef τ sig)) := by
  after_results_simp
  rfl

set_option maxRecDepth 8192 in
set_option maxHeartbeats 1000000 in
/-- What the stretch leaves in the buffer, over what it read. -/
theorem S1_v7 (V : Valuation τ sig (Elt Ideal)) :
    after (S1 (F := Ideal)) V (main_v7 : DevRef τ sig) = Cert.Spec.mm specFacts (V (main_arg0 : DevRef τ sig)) (V (main_arg3 : DevRef τ sig)) := by
  after_results_simp
  rfl

/-- Each operation writes one of the listed references. -/
theorem S1_writes : (S1 : List (HloOp τ sig (Elt Ideal))).Forall
    fun op => op.writes ⊆ (W1.map (Proc.devRef (τ := τ) .tc)).toFinset :=
  ⟨writes_sub_of_mem main_v0 (by decide),
   writes_sub_of_mem main_v1 (by decide),
   writes_sub_of_mem main_v2 (by decide),
   writes_sub_of_mem main_v3 (by decide),
   writes_sub_of_mem main_v4 (by decide),
   writes_sub_of_mem main_v5 (by decide),
   writes_sub_of_mem main_v6 (by decide),
   writes_sub_of_mem main_v7 (by decide)⟩

/-- A buffer the stretch does not write keeps its contents. -/
theorem S1_frame (V : Valuation τ sig (Elt Ideal)) {r : Ref sig .tc} (hr : r ∉ W1) :
    after (S1 (F := Ideal)) V (Proc.devRef (τ := τ) .tc r) = V (Proc.devRef .tc r) :=
  after_of_writes_sub S1 V S1_writes hr

end Cert.ReferenceIdeal.RefRun

end
-- ==== Proof.RefS2.lean ====
/-
  The reference's second stretch: the edge weights, first time.

  From the buffers holding the edge ends: the in-degree, its inverse square root where positive, gathered at the
  (wrapped) sources and targets, and the product of the two.
  An operation of a called function's body is written here over the buffers themselves: moving contents between a
  buffer's type and the equal type of the value it holds is the identity.
  The stretch is stated for arbitrary contents of the buffers it starts from: what its result buffer holds afterwards
  is the specification's function of what the buffers it reads held before, and a buffer it does not write holds
  what it held.
-/
import proofs.«104968_j30657476559416_2_alg».proof.Proof.RefBase

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

set_option Elab.async false

section
variable {F : FTy → Type} [FloatOps F]
/-- The stretch's 33 operations, in order. -/
abbrev S2 : List (HloOp τ sig (Elt F)) :=
  [ StableHlo.nullary main_cst (constant S_ .f32 0x3F800000#32),
    StableHlo.unary main_cst main_v8 (broadcastInDim S740000 ![] bcast_S_S740000 : (⟨S_, .f32⟩ : BufTy).Contents (Elt F) → (⟨S740000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S740000x1 ![0] bcast_S740000_S740000x1_0 : (⟨S740000, .i32⟩ : BufTy).Contents (Elt F) → (⟨S740000x1, .i32⟩ : BufTy).Contents (Elt F)),
    StableHlo.ternary main_v9 main_v10 main_v8 main_v11 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v13 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c (constantI S_ 32 0#32),
    StableHlo.unary main_c main_v16 (broadcastInDim S740000 ![] bcast_S_S740000 : (⟨S_, .i32⟩ : BufTy).Contents (Elt F) → (⟨S740000, .i32⟩ : BufTy).Contents (Elt F)),
    StableHlo.binary main_v3 main_v16 main_v17 (cmpi .slt : (⟨S740000, .i32⟩ : BufTy).Contents (Elt F) → (⟨S740000, .i32⟩ : BufTy).Contents (Elt F) → (⟨S740000, .i1⟩ : BufTy).Contents (Elt F)),
    StableHlo.nullary main_c_3 (constantI S_ 32 100000#32),
    StableHlo.unary main_c_3 main_v18 (broadcastInDim S740000 ![] bcast_S_S740000 : (⟨S_, .i32⟩ : BufTy).Contents (Elt F) → (⟨S740000, .i32⟩ : BufTy).Contents (Elt F)),
    StableHlo.binary main_v3 main_v18 main_v19 (addi : (⟨S740000, .i32⟩ : BufTy).Contents (Elt F) → (⟨S740000, .i32⟩ : BufTy).Contents (Elt F) → (⟨S740000, .i32⟩ : BufTy).Contents (Elt F)),
    StableHlo.ternary main_v17 main_v19 main_v3 main_v20 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v20 main_v21 (broadcastInDim S740000x1 ![0] bcast_S740000_S740000x1_0 : (⟨S740000, .i32⟩ : BufTy).Contents (Elt F) → (⟨S740000x1, .i32⟩ : BufTy).Contents (Elt F)),
    StableHlo.binary main_v15 main_v21 main_v22 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_4 (constantI S_ 32 0#32),
    StableHlo.unary main_c_4 main_v23 (broadcastInDim S740000 ![] bcast_S_S740000 : (⟨S_, .i32⟩ : BufTy).Contents (Elt F) → (⟨S740000, .i32⟩ : BufTy).Contents (Elt F)),
    StableHlo.binary main_v6 main_v23 main_v24 (cmpi .slt : (⟨S740000, .i32⟩ : BufTy).Contents (Elt F) → (⟨S740000, .i32⟩ : BufTy).Contents (Elt F) → (⟨S740000, .i1⟩ : BufTy).Contents (Elt F)),
    StableHlo.nullary main_c_5 (constantI S_ 32 100000#32),
    StableHlo.unary main_c_5 main_v25 (broadcastInDim S740000 ![] bcast_S_S740000 : (⟨S_, .i32⟩ : BufTy).Contents (Elt F) → (⟨S740000, .i32⟩ : BufTy).Contents (Elt F)),
    StableHlo.binary main_v6 main_v25 main_v26 (addi : (⟨S740000, .i32⟩ : BufTy).Contents (Elt F) → (⟨S740000, .i32⟩ : BufTy).Contents (Elt F) → (⟨S740000, .i32⟩ : BufTy).Contents (Elt F)),
    StableHlo.ternary main_v24 main_v26 main_v6 main_v27 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v27 main_v28 (broadcastInDim S740000x1 ![0] bcast_S740000_S740000x1_0 : (⟨S740000, .i32⟩ : BufTy).Contents (Elt F) → (⟨S740000x1, .i32⟩ : BufTy).Contents (Elt F)),
    StableHlo.binary main_v15 main_v28 main_v29 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v22 main_v29 main_v30 (mulf : (⟨S740000, .f32⟩ : BufTy).Contents (Elt F) → (⟨S740000, .f32⟩ : BufTy).Contents (Elt F) → (⟨S740000, .f32⟩ : BufTy).Contents (Elt F)) ]
end

/-- Every reference the stretch writes. -/
abbrev W2 : List (Ref sig .tc) :=
  [main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30]

set_option maxRecDepth 8192 in
set_option maxHeartbeats 1000000 in
/-- What the stretch leaves in the buffer, over what it read. -/
theorem S2_v30 (V : Valuation τ sig (Elt Ideal)) :
    after (S2 (F := Ideal)) V (main_v30 : DevRef τ sig) = normOf specFacts (V (main_v3 : DevRef τ sig)) (V (main_v6 : DevRef τ sig)) := by
  after_results_simp
  rfl

/-- Each operation writes one of the listed references. -/
theorem S2_writes : (S2 : List (HloOp τ sig (Elt Ideal))).Forall
    fun op => op.writes ⊆ (W2.map (Proc.devRef (τ := τ) .tc)).toFinset :=
  ⟨writes_sub_of_mem main_cst (by decide),
   writes_sub_of_mem main_v8 (by decide),
   writes_sub_of_mem main_cst_0 (by decide),
   writes_sub_of_mem main_v9 (by decide),
   writes_sub_of_mem main_v10 (by decide),
   writes_sub_of_mem main_v11 (by decide),
   writes_sub_of_mem main_cst_1 (by decide),
   writes_sub_of_mem main_v12 (by decide),
   writes_sub_of_mem main_v13 (by decide),
   writes_sub_of_mem main_v14 (by decide),
   writes_sub_of_mem main_cst_2 (by decide),
   writes_sub_of_mem main_call0_v0 (by decide),
   writes_sub_of_mem main_call0_v1 (by decide),
   writes_sub_of_mem main_v15 (by decide),
   writes_sub_of_mem main_c (by decide),
   writes_sub_of_mem main_v16 (by decide),
   writes_sub_of_mem main_v17 (by decide),
   writes_sub_of_mem main_c_3 (by decide),
   writes_sub_of_mem main_v18 (by decide),
   writes_sub_of_mem main_v19 (by decide),
   writes_sub_of_mem main_v20 (by decide),
   writes_sub_of_mem main_v21 (by decide),
   writes_sub_of_mem main_v22 (by decide),
   writes_sub_of_mem main_c_4 (by decide),
   writes_sub_of_mem main_v23 (by decide),
   writes_sub_of_mem main_v24 (by decide),
   writes_sub_of_mem main_c_5 (by decide),
   writes_sub_of_mem main_v25 (by decide),
   writes_sub_of_mem main_v26 (by decide),
   writes_sub_of_mem main_v27 (by decide),
   writes_sub_of_mem main_v28 (by decide),
   writes_sub_of_mem main_v29 (by decide),
   writes_sub_of_mem main_v30 (by decide)⟩

/-- A buffer the stretch does not write keeps its contents. -/
theorem S2_frame (V : Valuation τ sig (Elt Ideal)) {r : Ref sig .tc} (hr : r ∉ W2) :
    after (S2 (F := Ideal)) V (Proc.devRef (τ := τ) .tc r) = V (Proc.devRef .tc r) :=
  after_of_writes_sub S2 V S2_writes hr

end Cert.ReferenceIdeal.RefRun

end
-- ==== Proof.RefS3.lean ====
/-
  The reference's third stretch: the first aggregation and the second product.

  The weighted rows of the first product at the sources are added into their targets; the result is multiplied by
  the second weight matrix.
  The stretch is stated for arbitrary contents of the buffers it starts from: what its result buffer holds afterwards
  is the specification's function of what the buffers it reads held before, and a buffer it does not write holds
  what it held.
-/
import proofs.«104968_j30657476559416_2_alg».proof.Proof.RefBase

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

set_option Elab.async false

section
variable {F : FTy → Type} [FloatOps F]
/-- The stretch's 17 operations, in order. -/
abbrev S3 : List (HloOp τ sig (Elt F)) :=
  [ StableHlo.unary main_v30 main_v31 (broadcastInDim S740000x1 ![0] bcast_S740000_S740000x1_0 : (⟨S740000, .f32⟩ : BufTy).Contents (Elt F) → (⟨S740000x1, .f32⟩ : BufTy).Contents (Elt F)),
    StableHlo.nullary main_c_6 (constantI S_ 32 0#32),
    StableHlo.unary main_c_6 main_v32 (broadcastInDim S740000 ![] bcast_S_S740000 : (⟨S_, .i32⟩ : BufTy).Contents (Elt F) → (⟨S740000, .i32⟩ : BufTy).Contents (Elt F)),
    StableHlo.binary main_v3 main_v32 main_v33 (cmpi .slt : (⟨S740000, .i32⟩ : BufTy).Contents (Elt F) → (⟨S740000, .i32⟩ : BufTy).Contents (Elt F) → (⟨S740000, .i1⟩ : BufTy).Contents (Elt F)),
    StableHlo.nullary main_c_7 (constantI S_ 32 100000#32),
    StableHlo.unary main_c_7 main_v34 (broadcastInDim S740000 ![] bcast_S_S740000 : (⟨S_, .i32⟩ : BufTy).Contents (Elt F) → (⟨S740000, .i32⟩ : BufTy).Contents (Elt F)),
    StableHlo.binary main_v3 main_v34 main_v35 (addi : (⟨S740000, .i32⟩ : BufTy).Contents (Elt F) → (⟨S740000, .i32⟩ : BufTy).Contents (Elt F) → (⟨S740000, .i32⟩ : BufTy).Contents (Elt F)),
    StableHlo.ternary main_v33 main_v35 main_v3 main_v36 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v36 main_v37 (broadcastInDim S740000x1 ![0] bcast_S740000_S740000x1_0 : (⟨S740000, .i32⟩ : BufTy).Contents (Elt F) → (⟨S740000x1, .i32⟩ : BufTy).Contents (Elt F)),
    StableHlo.binary main_v7 main_v37 main_v38 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v31 main_v39 (broadcastInDim S740000x128 ![0, 1] bcast_S740000x1_S740000x128_0_1 : (⟨S740000x1, .f32⟩ : BufTy).Contents (Elt F) → (⟨S740000x128, .f32⟩ : BufTy).Contents (Elt F)),
    StableHlo.binary main_v39 main_v38 main_v40 (mulf : (⟨S740000x128, .f32⟩ : BufTy).Contents (Elt F) → (⟨S740000x128, .f32⟩ : BufTy).Contents (Elt F) → (⟨S740000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S740000x1 ![0] bcast_S740000_S740000x1_0 : (⟨S740000, .i32⟩ : BufTy).Contents (Elt F) → (⟨S740000x1, .i32⟩ : BufTy).Contents (Elt F)),
    StableHlo.ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.binary main_v43 main_arg4 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
end

/-- Every reference the stretch writes. -/
abbrev W3 : List (Ref sig .tc) :=
  [main_v31, main_c_6, main_v32, main_v33, main_c_7, main_v34, main_v35, main_v36, main_v37, main_v38, main_v39, main_v40, main_cst_8, main_v41, main_v42, main_v43, main_v44]

set_option maxRecDepth 8192 in
set_option maxHeartbeats 1000000 in
/-- What the stretch leaves in the buffer, over what it read. -/
theorem S3_v44 (V : Valuation τ sig (Elt Ideal)) :
    after (S3 (F := Ideal)) V (main_v44 : DevRef τ sig) = Cert.Spec.mm specFacts (Cert.Spec.aggOf specFacts (V (main_v30 : DevRef τ sig)) (V (main_v3 : DevRef τ sig)) (V (main_v6 : DevRef τ sig)) (V (main_v7 : DevRef τ sig))) (V (main_arg4 : DevRef τ sig)) := by
  after_results_simp
  rfl

/-- Each operation writes one of the listed references. -/
theorem S3_writes : (S3 : List (HloOp τ sig (Elt Ideal))).Forall
    fun op => op.writes ⊆ (W3.map (Proc.devRef (τ := τ) .tc)).toFinset :=
  ⟨writes_sub_of_mem main_v31 (by decide),
   writes_sub_of_mem main_c_6 (by decide),
   writes_sub_of_mem main_v32 (by decide),
   writes_sub_of_mem main_v33 (by decide),
   writes_sub_of_mem main_c_7 (by decide),
   writes_sub_of_mem main_v34 (by decide),
   writes_sub_of_mem main_v35 (by decide),
   writes_sub_of_mem main_v36 (by decide),
   writes_sub_of_mem main_v37 (by decide),
   writes_sub_of_mem main_v38 (by decide),
   writes_sub_of_mem main_v39 (by decide),
   writes_sub_of_mem main_v40 (by decide),
   writes_sub_of_mem main_cst_8 (by decide),
   writes_sub_of_mem main_v41 (by decide),
   writes_sub_of_mem main_v42 (by decide),
   writes_sub_of_mem main_v43 (by decide),
   writes_sub_of_mem main_v44 (by decide)⟩

/-- A buffer the stretch does not write keeps its contents. -/
theorem S3_frame (V : Valuation τ sig (Elt Ideal)) {r : Ref sig .tc} (hr : r ∉ W3) :
    after (S3 (F := Ideal)) V (Proc.devRef (τ := τ) .tc r) = V (Proc.devRef .tc r) :=
  after_of_writes_sub S3 V S3_writes hr

end Cert.ReferenceIdeal.RefRun

end
-- ==== Proof.RefS4.lean ====
/-
  The reference's fourth stretch: the edge weights, second time.

  The same computation as the first time, from the same two buffers of edge ends, into buffers of its own.
  An operation of a called function's body is written here over the buffers themselves: moving contents between a
  buffer's type and the equal type of the value it holds is the identity.
  The stretch is stated for arbitrary contents of the buffers it starts from: what its result buffer holds afterwards
  is the specification's function of what the buffers it reads held before, and a buffer it does not write holds
  what it held.
-/
import proofs.«104968_j30657476559416_2_alg».proof.Proof.RefBase

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

set_option Elab.async false

section
variable {F : FTy → Type} [FloatOps F]
/-- The stretch's 33 operations, in order. -/
abbrev S4 : List (HloOp τ sig (Elt F)) :=
  [ StableHlo.nullary main_cst_9 (constant S_ .f32 0x3F800000#32),
    StableHlo.unary main_cst_9 main_v45 (broadcastInDim S740000 ![] bcast_S_S740000 : (⟨S_, .f32⟩ : BufTy).Contents (Elt F) → (⟨S740000, .f32⟩ : BufTy).Contents (Elt F)),
    StableHlo.nullary main_cst_10 (constant S_ .f32 0x00000000#32),
    StableHlo.unary main_cst_10 main_v46 (broadcastInDim S100000 ![] bcast_S_S100000 : (⟨S_, .f32⟩ : BufTy).Contents (Elt F) → (⟨S100000, .f32⟩ : BufTy).Contents (Elt F)),
    StableHlo.unary main_v6 main_v47 (broadcastInDim S740000x1 ![0] bcast_S740000_S740000x1_0 : (⟨S740000, .i32⟩ : BufTy).Contents (Elt F) → (⟨S740000x1, .i32⟩ : BufTy).Contents (Elt F)),
    StableHlo.ternary main_v46 main_v47 main_v45 main_v48 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_11 (constant S_ .f32 0x00000000#32),
    StableHlo.unary main_cst_11 main_v49 (broadcastInDim S100000 ![] bcast_S_S100000 : (⟨S_, .f32⟩ : BufTy).Contents (Elt F) → (⟨S100000, .f32⟩ : BufTy).Contents (Elt F)),
    StableHlo.binary main_v48 main_v49 main_v50 (cmpf .ogt : (⟨S100000, .f32⟩ : BufTy).Contents (Elt F) → (⟨S100000, .f32⟩ : BufTy).Contents (Elt F) → (⟨S100000, .i1⟩ : BufTy).Contents (Elt F)),
    StableHlo.unary main_v48 main_v51 (Host.rsqrt : (⟨S100000, .f32⟩ : BufTy).Contents (Elt F) → (⟨S100000, .f32⟩ : BufTy).Contents (Elt F)),
    StableHlo.nullary main_cst_12 (constant S_ .f32 0x00000000#32),
    StableHlo.unary main_cst_12 main_call1_v0 (id : (⟨S_, .f32⟩ : BufTy).Contents (Elt F) → (⟨S_, .f32⟩ : BufTy).Contents (Elt F)),
    StableHlo.unary main_call1_v0 main_call1_v1 (broadcastInDim S100000 ![] bcast_S_S100000 : (⟨S_, .f32⟩ : BufTy).Contents (Elt F) → (⟨S100000, .f32⟩ : BufTy).Contents (Elt F)),
    StableHlo.ternary main_v50 main_v51 main_call1_v1 main_v52 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c_13 (constantI S_ 32 0#32),
    StableHlo.unary main_c_13 main_v53 (broadcastInDim S740000 ![] bcast_S_S740000 : (⟨S_, .i32⟩ : BufTy).Contents (Elt F) → (⟨S740000, .i32⟩ : BufTy).Contents (Elt F)),
    StableHlo.binary main_v3 main_v53 main_v54 (cmpi .slt : (⟨S740000, .i32⟩ : BufTy).Contents (Elt F) → (⟨S740000, .i32⟩ : BufTy).Contents (Elt F) → (⟨S740000, .i1⟩ : BufTy).Contents (Elt F)),
    StableHlo.nullary main_c_14 (constantI S_ 32 100000#32),
    StableHlo.unary main_c_14 main_v55 (broadcastInDim S740000 ![] bcast_S_S740000 : (⟨S_, .i32⟩ : BufTy).Contents (Elt F) → (⟨S740000, .i32⟩ : BufTy).Contents (Elt F)),
    StableHlo.binary main_v3 main_v55 main_v56 (addi : (⟨S740000, .i32⟩ : BufTy).Contents (Elt F) → (⟨S740000, .i32⟩ : BufTy).Contents (Elt F) → (⟨S740000, .i32⟩ : BufTy).Contents (Elt F)),
    StableHlo.ternary main_v54 main_v56 main_v3 main_v57 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v57 main_v58 (broadcastInDim S740000x1 ![0] bcast_S740000_S740000x1_0 : (⟨S740000, .i32⟩ : BufTy).Contents (Elt F) → (⟨S740000x1, .i32⟩ : BufTy).Contents (Elt F)),
    StableHlo.binary main_v52 main_v58 main_v59 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_15 (constantI S_ 32 0#32),
    StableHlo.unary main_c_15 main_v60 (broadcastInDim S740000 ![] bcast_S_S740000 : (⟨S_, .i32⟩ : BufTy).Contents (Elt F) → (⟨S740000, .i32⟩ : BufTy).Contents (Elt F)),
    StableHlo.binary main_v6 main_v60 main_v61 (cmpi .slt : (⟨S740000, .i32⟩ : BufTy).Contents (Elt F) → (⟨S740000, .i32⟩ : BufTy).Contents (Elt F) → (⟨S740000, .i1⟩ : BufTy).Contents (Elt F)),
    StableHlo.nullary main_c_16 (constantI S_ 32 100000#32),
    StableHlo.unary main_c_16 main_v62 (broadcastInDim S740000 ![] bcast_S_S740000 : (⟨S_, .i32⟩ : BufTy).Contents (Elt F) → (⟨S740000, .i32⟩ : BufTy).Contents (Elt F)),
    StableHlo.binary main_v6 main_v62 main_v63 (addi : (⟨S740000, .i32⟩ : BufTy).Contents (Elt F) → (⟨S740000, .i32⟩ : BufTy).Contents (Elt F) → (⟨S740000, .i32⟩ : BufTy).Contents (Elt F)),
    StableHlo.ternary main_v61 main_v63 main_v6 main_v64 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v64 main_v65 (broadcastInDim S740000x1 ![0] bcast_S740000_S740000x1_0 : (⟨S740000, .i32⟩ : BufTy).Contents (Elt F) → (⟨S740000x1, .i32⟩ : BufTy).Contents (Elt F)),
    StableHlo.binary main_v52 main_v65 main_v66 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v59 main_v66 main_v67 (mulf : (⟨S740000, .f32⟩ : BufTy).Contents (Elt F) → (⟨S740000, .f32⟩ : BufTy).Contents (Elt F) → (⟨S740000, .f32⟩ : BufTy).Contents (Elt F)) ]
end

/-- Every reference the stretch writes. -/
abbrev W4 : List (Ref sig .tc) :=
  [main_cst_9, main_v45, main_cst_10, main_v46, main_v47, main_v48, main_cst_11, main_v49, main_v50, main_v51, main_cst_12, main_call1_v0, main_call1_v1, main_v52, main_c_13, main_v53, main_v54, main_c_14, main_v55, main_v56, main_v57, main_v58, main_v59, main_c_15, main_v60, main_v61, main_c_16, main_v62, main_v63, main_v64, main_v65, main_v66, main_v67]

set_option maxRecDepth 8192 in
set_option maxHeartbeats 1000000 in
/-- What the stretch leaves in the buffer, over what it read. -/
theorem S4_v67 (V : Valuation τ sig (Elt Ideal)) :
    after (S4 (F := Ideal)) V (main_v67 : DevRef τ sig) = normOf specFacts (V (main_v3 : DevRef τ sig)) (V (main_v6 : DevRef τ sig)) := by
  after_results_simp
  rfl

/-- Each operation writes one of the listed references. -/
theorem S4_writes : (S4 : List (HloOp τ sig (Elt Ideal))).Forall
    fun op => op.writes ⊆ (W4.map (Proc.devRef (τ := τ) .tc)).toFinset :=
  ⟨writes_sub_of_mem main_cst_9 (by decide),
   writes_sub_of_mem main_v45 (by decide),
   writes_sub_of_mem main_cst_10 (by decide),
   writes_sub_of_mem main_v46 (by decide),
   writes_sub_of_mem main_v47 (by decide),
   writes_sub_of_mem main_v48 (by decide),
   writes_sub_of_mem main_cst_11 (by decide),
   writes_sub_of_mem main_v49 (by decide),
   writes_sub_of_mem main_v50 (by decide),
   writes_sub_of_mem main_v51 (by decide),
   writes_sub_of_mem main_cst_12 (by decide),
   writes_sub_of_mem main_call1_v0 (by decide),
   writes_sub_of_mem main_call1_v1 (by decide),
   writes_sub_of_mem main_v52 (by decide),
   writes_sub_of_mem main_c_13 (by decide),
   writes_sub_of_mem main_v53 (by decide),
   writes_sub_of_mem main_v54 (by decide),
   writes_sub_of_mem main_c_14 (by decide),
   writes_sub_of_mem main_v55 (by decide),
   writes_sub_of_mem main_v56 (by decide),
   writes_sub_of_mem main_v57 (by decide),
   writes_sub_of_mem main_v58 (by decide),
   writes_sub_of_mem main_v59 (by decide),
   writes_sub_of_mem main_c_15 (by decide),
   writes_sub_of_mem main_v60 (by decide),
   writes_sub_of_mem main_v61 (by decide),
   writes_sub_of_mem main_c_16 (by decide),
   writes_sub_of_mem main_v62 (by decide),
   writes_sub_of_mem main_v63 (by decide),
   writes_sub_of_mem main_v64 (by decide),
   writes_sub_of_mem main_v65 (by decide),
   writes_sub_of_mem main_v66 (by decide),
   writes_sub_of_mem main_v67 (by decide)⟩

/-- A buffer the stretch does not write keeps its contents. -/
theorem S4_frame (V : Valuation τ sig (Elt Ideal)) {r : Ref sig .tc} (hr : r ∉ W4) :
    after (S4 (F := Ideal)) V (Proc.devRef (τ := τ) .tc r) = V (Proc.devRef .tc r) :=
  after_of_writes_sub S4 V S4_writes hr

end Cert.ReferenceIdeal.RefRun

end
-- ==== Proof.RefS5.lean ====
/-
  The reference's fifth stretch: the second aggregation, the leaky rectifier and the third product.

  The aggregation of the second product; then t where t ≥ 0 and the slope times t elsewhere; then the product with the
  third weight matrix.
  An operation of a called function's body is written here over the buffers themselves: moving contents between a
  buffer's type and the equal type of the value it holds is the identity.
  The stretch is stated for arbitrary contents of the buffers it starts from: what its result buffer holds afterwards
  is the specification's function of what the buffers it reads held before, and a buffer it does not write holds
  what it held.
-/
import proofs.«104968_j30657476559416_2_alg».proof.Proof.RefBase

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

set_option Elab.async false

section
variable {F : FTy → Type} [FloatOps F]
/-- The stretch's 25 operations, in order. -/
abbrev S5 : List (HloOp τ sig (Elt F)) :=
  [ StableHlo.unary main_v67 main_v68 (broadcastInDim S740000x1 ![0] bcast_S740000_S740000x1_0 : (⟨S740000, .f32⟩ : BufTy).Contents (Elt F) → (⟨S740000x1, .f32⟩ : BufTy).Contents (Elt F)),
    StableHlo.nullary main_c_17 (constantI S_ 32 0#32),
    StableHlo.unary main_c_17 main_v69 (broadcastInDim S740000 ![] bcast_S_S740000 : (⟨S_, .i32⟩ : BufTy).Contents (Elt F) → (⟨S740000, .i32⟩ : BufTy).Contents (Elt F)),
    StableHlo.binary main_v3 main_v69 main_v70 (cmpi .slt : (⟨S740000, .i32⟩ : BufTy).Contents (Elt F) → (⟨S740000, .i32⟩ : BufTy).Contents (Elt F) → (⟨S740000, .i1⟩ : BufTy).Contents (Elt F)),
    StableHlo.nullary main_c_18 (constantI S_ 32 100000#32),
    StableHlo.unary main_c_18 main_v71 (broadcastInDim S740000 ![] bcast_S_S740000 : (⟨S_, .i32⟩ : BufTy).Contents (Elt F) → (⟨S740000, .i32⟩ : BufTy).Contents (Elt F)),
    StableHlo.binary main_v3 main_v71 main_v72 (addi : (⟨S740000, .i32⟩ : BufTy).Contents (Elt F) → (⟨S740000, .i32⟩ : BufTy).Contents (Elt F) → (⟨S740000, .i32⟩ : BufTy).Contents (Elt F)),
    StableHlo.ternary main_v70 main_v72 main_v3 main_v73 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v73 main_v74 (broadcastInDim S740000x1 ![0] bcast_S740000_S740000x1_0 : (⟨S740000, .i32⟩ : BufTy).Contents (Elt F) → (⟨S740000x1, .i32⟩ : BufTy).Contents (Elt F)),
    StableHlo.binary main_v44 main_v74 main_v75 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v68 main_v76 (broadcastInDim S740000x128 ![0, 1] bcast_S740000x1_S740000x128_0_1 : (⟨S740000x1, .f32⟩ : BufTy).Contents (Elt F) → (⟨S740000x128, .f32⟩ : BufTy).Contents (Elt F)),
    StableHlo.binary main_v76 main_v75 main_v77 (mulf : (⟨S740000x128, .f32⟩ : BufTy).Contents (Elt F) → (⟨S740000x128, .f32⟩ : BufTy).Contents (Elt F) → (⟨S740000x128, .f32⟩ : BufTy).Contents (Elt F)),
    StableHlo.nullary main_cst_19 (constant S_ .f32 0x00000000#32),
    StableHlo.unary main_cst_19 main_v78 (broadcastInDim S100000x128 ![] bcast_S_S100000x128 : (⟨S_, .f32⟩ : BufTy).Contents (Elt F) → (⟨S100000x128, .f32⟩ : BufTy).Contents (Elt F)),
    StableHlo.unary main_v6 main_v79 (broadcastInDim S740000x1 ![0] bcast_S740000_S740000x1_0 : (⟨S740000, .i32⟩ : BufTy).Contents (Elt F) → (⟨S740000x1, .i32⟩ : BufTy).Contents (Elt F)),
    StableHlo.ternary main_v78 main_v79 main_v77 main_v80 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.nullary main_cst_20 (constant S_ .f32 0x3C23D70A#32),
    StableHlo.nullary main_call2_cst (constant S_ .f32 0x00000000#32),
    StableHlo.unary main_call2_cst main_call2_v0 (broadcastInDim S100000x128 ![] bcast_S_S100000x128 : (⟨S_, .f32⟩ : BufTy).Contents (Elt F) → (⟨S100000x128, .f32⟩ : BufTy).Contents (Elt F)),
    StableHlo.binary main_v80 main_call2_v0 main_call2_v1 (cmpf .oge : (⟨S100000x128, .f32⟩ : BufTy).Contents (Elt F) → (⟨S100000x128, .f32⟩ : BufTy).Contents (Elt F) → (⟨S100000x128, .i1⟩ : BufTy).Contents (Elt F)),
    StableHlo.unary main_cst_20 main_call2_v2 (id : (⟨S_, .f32⟩ : BufTy).Contents (Elt F) → (⟨S_, .f32⟩ : BufTy).Contents (Elt F)),
    StableHlo.unary main_call2_v2 main_call2_v3 (broadcastInDim S100000x128 ![] bcast_S_S100000x128 : (⟨S_, .f32⟩ : BufTy).Contents (Elt F) → (⟨S100000x128, .f32⟩ : BufTy).Contents (Elt F)),
    StableHlo.binary main_call2_v3 main_v80 main_call2_v4 (mulf : (⟨S100000x128, .f32⟩ : BufTy).Contents (Elt F) → (⟨S100000x128, .f32⟩ : BufTy).Contents (Elt F) → (⟨S100000x128, .f32⟩ : BufTy).Contents (Elt F)),
    StableHlo.ternary main_call2_v1 main_v80 main_call2_v4 main_v81 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.binary main_v81 main_arg5 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
end

/-- Every reference the stretch writes. -/
abbrev W5 : List (Ref sig .tc) :=
  [main_v68, main_c_17, main_v69, main_v70, main_c_18, main_v71, main_v72, main_v73, main_v74, main_v75, main_v76, main_v77, main_cst_19, main_v78, main_v79, main_v80, main_cst_20, main_call2_cst, main_call2_v0, main_call2_v1, main_call2_v2, main_call2_v3, main_call2_v4, main_v81, main_v82]

set_option maxRecDepth 8192 in
set_option maxHeartbeats 1000000 in
/-- What the stretch leaves in the buffer, over what it read. -/
theorem S5_v82 (V : Valuation τ sig (Elt Ideal)) :
    after (S5 (F := Ideal)) V (main_v82 : DevRef τ sig) = Cert.Spec.mm specFacts (Cert.Spec.leaky specFacts (Cert.Spec.aggOf specFacts (V (main_v67 : DevRef τ sig)) (V (main_v3 : DevRef τ sig)) (V (main_v6 : DevRef τ sig)) (V (main_v44 : DevRef τ sig)))) (V (main_arg5 : DevRef τ sig)) := by
  after_results_simp
  rfl

/-- Each operation writes one of the listed references. -/
theorem S5_writes : (S5 : List (HloOp τ sig (Elt Ideal))).Forall
    fun op => op.writes ⊆ (W5.map (Proc.devRef (τ := τ) .tc)).toFinset :=
  ⟨writes_sub_of_mem main_v68 (by decide),
   writes_sub_of_mem main_c_17 (by decide),
   writes_sub_of_mem main_v69 (by decide),
   writes_sub_of_mem main_v70 (by decide),
   writes_sub_of_mem main_c_18 (by decide),
   writes_sub_of_mem main_v71 (by decide),
   writes_sub_of_mem main_v72 (by decide),
   writes_sub_of_mem main_v73 (by decide),
   writes_sub_of_mem main_v74 (by decide),
   writes_sub_of_mem main_v75 (by decide),
   writes_sub_of_mem main_v76 (by decide),
   writes_sub_of_mem main_v77 (by decide),
   writes_sub_of_mem main_cst_19 (by decide),
   writes_sub_of_mem main_v78 (by decide),
   writes_sub_of_mem main_v79 (by decide),
   writes_sub_of_mem main_v80 (by decide),
   writes_sub_of_mem main_cst_20 (by decide),
   writes_sub_of_mem main_call2_cst (by decide),
   writes_sub_of_mem main_call2_v0 (by decide),
   writes_sub_of_mem main_call2_v1 (by decide),
   writes_sub_of_mem main_call2_v2 (by decide),
   writes_sub_of_mem main_call2_v3 (by decide),
   writes_sub_of_mem main_call2_v4 (by decide),
   writes_sub_of_mem main_v81 (by decide),
   writes_sub_of_mem main_v82 (by decide)⟩

/-- A buffer the stretch does not write keeps its contents. -/
theorem S5_frame (V : Valuation τ sig (Elt Ideal)) {r : Ref sig .tc} (hr : r ∉ W5) :
    after (S5 (F := Ideal)) V (Proc.devRef (τ := τ) .tc r) = V (Proc.devRef .tc r) :=
  after_of_writes_sub S5 V S5_writes hr

end Cert.ReferenceIdeal.RefRun

end
-- ==== Proof.RefS6.lean ====
/-
  The reference's sixth stretch: the edge weights, third time.

  The same computation again, from the same two buffers of edge ends, into buffers of its own.
  An operation of a called function's body is written here over the buffers themselves: moving contents between a
  buffer's type and the equal type of the value it holds is the identity.
  The stretch is stated for arbitrary contents of the buffers it starts from: what its result buffer holds afterwards
  is the specification's function of what the buffers it reads held before, and a buffer it does not write holds
  what it held.
-/
import proofs.«104968_j30657476559416_2_alg».proof.Proof.RefBase

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

set_option Elab.async false

section
variable {F : FTy → Type} [FloatOps F]
/-- The stretch's 33 operations, in order. -/
abbrev S6 : List (HloOp τ sig (Elt F)) :=
  [ StableHlo.nullary main_cst_21 (constant S_ .f32 0x3F800000#32),
    StableHlo.unary main_cst_21 main_v83 (broadcastInDim S740000 ![] bcast_S_S740000 : (⟨S_, .f32⟩ : BufTy).Contents (Elt F) → (⟨S740000, .f32⟩ : BufTy).Contents (Elt F)),
    StableHlo.nullary main_cst_22 (constant S_ .f32 0x00000000#32),
    StableHlo.unary main_cst_22 main_v84 (broadcastInDim S100000 ![] bcast_S_S100000 : (⟨S_, .f32⟩ : BufTy).Contents (Elt F) → (⟨S100000, .f32⟩ : BufTy).Contents (Elt F)),
    StableHlo.unary main_v6 main_v85 (broadcastInDim S740000x1 ![0] bcast_S740000_S740000x1_0 : (⟨S740000, .i32⟩ : BufTy).Contents (Elt F) → (⟨S740000x1, .i32⟩ : BufTy).Contents (Elt F)),
    StableHlo.ternary main_v84 main_v85 main_v83 main_v86 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.nullary main_cst_23 (constant S_ .f32 0x00000000#32),
    StableHlo.unary main_cst_23 main_v87 (broadcastInDim S100000 ![] bcast_S_S100000 : (⟨S_, .f32⟩ : BufTy).Contents (Elt F) → (⟨S100000, .f32⟩ : BufTy).Contents (Elt F)),
    StableHlo.binary main_v86 main_v87 main_v88 (cmpf .ogt : (⟨S100000, .f32⟩ : BufTy).Contents (Elt F) → (⟨S100000, .f32⟩ : BufTy).Contents (Elt F) → (⟨S100000, .i1⟩ : BufTy).Contents (Elt F)),
    StableHlo.unary main_v86 main_v89 (Host.rsqrt : (⟨S100000, .f32⟩ : BufTy).Contents (Elt F) → (⟨S100000, .f32⟩ : BufTy).Contents (Elt F)),
    StableHlo.nullary main_cst_24 (constant S_ .f32 0x00000000#32),
    StableHlo.unary main_cst_24 main_call3_v0 (id : (⟨S_, .f32⟩ : BufTy).Contents (Elt F) → (⟨S_, .f32⟩ : BufTy).Contents (Elt F)),
    StableHlo.unary main_call3_v0 main_call3_v1 (broadcastInDim S100000 ![] bcast_S_S100000 : (⟨S_, .f32⟩ : BufTy).Contents (Elt F) → (⟨S100000, .f32⟩ : BufTy).Contents (Elt F)),
    StableHlo.ternary main_v88 main_v89 main_call3_v1 main_v90 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    StableHlo.nullary main_c_25 (constantI S_ 32 0#32),
    StableHlo.unary main_c_25 main_v91 (broadcastInDim S740000 ![] bcast_S_S740000 : (⟨S_, .i32⟩ : BufTy).Contents (Elt F) → (⟨S740000, .i32⟩ : BufTy).Contents (Elt F)),
    StableHlo.binary main_v3 main_v91 main_v92 (cmpi .slt : (⟨S740000, .i32⟩ : BufTy).Contents (Elt F) → (⟨S740000, .i32⟩ : BufTy).Contents (Elt F) → (⟨S740000, .i1⟩ : BufTy).Contents (Elt F)),
    StableHlo.nullary main_c_26 (constantI S_ 32 100000#32),
    StableHlo.unary main_c_26 main_v93 (broadcastInDim S740000 ![] bcast_S_S740000 : (⟨S_, .i32⟩ : BufTy).Contents (Elt F) → (⟨S740000, .i32⟩ : BufTy).Contents (Elt F)),
    StableHlo.binary main_v3 main_v93 main_v94 (addi : (⟨S740000, .i32⟩ : BufTy).Contents (Elt F) → (⟨S740000, .i32⟩ : BufTy).Contents (Elt F) → (⟨S740000, .i32⟩ : BufTy).Contents (Elt F)),
    StableHlo.ternary main_v92 main_v94 main_v3 main_v95 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v95 main_v96 (broadcastInDim S740000x1 ![0] bcast_S740000_S740000x1_0 : (⟨S740000, .i32⟩ : BufTy).Contents (Elt F) → (⟨S740000x1, .i32⟩ : BufTy).Contents (Elt F)),
    StableHlo.binary main_v90 main_v96 main_v97 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_27 (constantI S_ 32 0#32),
    StableHlo.unary main_c_27 main_v98 (broadcastInDim S740000 ![] bcast_S_S740000 : (⟨S_, .i32⟩ : BufTy).Contents (Elt F) → (⟨S740000, .i32⟩ : BufTy).Contents (Elt F)),
    StableHlo.binary main_v6 main_v98 main_v99 (cmpi .slt : (⟨S740000, .i32⟩ : BufTy).Contents (Elt F) → (⟨S740000, .i32⟩ : BufTy).Contents (Elt F) → (⟨S740000, .i1⟩ : BufTy).Contents (Elt F)),
    StableHlo.nullary main_c_28 (constantI S_ 32 100000#32),
    StableHlo.unary main_c_28 main_v100 (broadcastInDim S740000 ![] bcast_S_S740000 : (⟨S_, .i32⟩ : BufTy).Contents (Elt F) → (⟨S740000, .i32⟩ : BufTy).Contents (Elt F)),
    StableHlo.binary main_v6 main_v100 main_v101 (addi : (⟨S740000, .i32⟩ : BufTy).Contents (Elt F) → (⟨S740000, .i32⟩ : BufTy).Contents (Elt F) → (⟨S740000, .i32⟩ : BufTy).Contents (Elt F)),
    StableHlo.ternary main_v99 main_v101 main_v6 main_v102 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v102 main_v103 (broadcastInDim S740000x1 ![0] bcast_S740000_S740000x1_0 : (⟨S740000, .i32⟩ : BufTy).Contents (Elt F) → (⟨S740000x1, .i32⟩ : BufTy).Contents (Elt F)),
    StableHlo.binary main_v90 main_v103 main_v104 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v97 main_v104 main_v105 (mulf : (⟨S740000, .f32⟩ : BufTy).Contents (Elt F) → (⟨S740000, .f32⟩ : BufTy).Contents (Elt F) → (⟨S740000, .f32⟩ : BufTy).Contents (Elt F)) ]
end

/-- Every reference the stretch writes. -/
abbrev W6 : List (Ref sig .tc) :=
  [main_cst_21, main_v83, main_cst_22, main_v84, main_v85, main_v86, main_cst_23, main_v87, main_v88, main_v89, main_cst_24, main_call3_v0, main_call3_v1, main_v90, main_c_25, main_v91, main_v92, main_c_26, main_v93, main_v94, main_v95, main_v96, main_v97, main_c_27, main_v98, main_v99, main_c_28, main_v100, main_v101, main_v102, main_v103, main_v104, main_v105]

set_option maxRecDepth 8192 in
set_option maxHeartbeats 1000000 in
/-- What the stretch leaves in the buffer, over what it read. -/
theorem S6_v105 (V : Valuation τ sig (Elt Ideal)) :
    after (S6 (F := Ideal)) V (main_v105 : DevRef τ sig) = normOf specFacts (V (main_v3 : DevRef τ sig)) (V (main_v6 : DevRef τ sig)) := by
  after_results_simp
  rfl

/-- Each operation writes one of the listed references. -/
theorem S6_writes : (S6 : List (HloOp τ sig (Elt Ideal))).Forall
    fun op => op.writes ⊆ (W6.map (Proc.devRef (τ := τ) .tc)).toFinset :=
  ⟨writes_sub_of_mem main_cst_21 (by decide),
   writes_sub_of_mem main_v83 (by decide),
   writes_sub_of_mem main_cst_22 (by decide),
   writes_sub_of_mem main_v84 (by decide),
   writes_sub_of_mem main_v85 (by decide),
   writes_sub_of_mem main_v86 (by decide),
   writes_sub_of_mem main_cst_23 (by decide),
   writes_sub_of_mem main_v87 (by decide),
   writes_sub_of_mem main_v88 (by decide),
   writes_sub_of_mem main_v89 (by decide),
   writes_sub_of_mem main_cst_24 (by decide),
   writes_sub_of_mem main_call3_v0 (by decide),
   writes_sub_of_mem main_call3_v1 (by decide),
   writes_sub_of_mem main_v90 (by decide),
   writes_sub_of_mem main_c_25 (by decide),
   writes_sub_of_mem main_v91 (by decide),
   writes_sub_of_mem main_v92 (by decide),
   writes_sub_of_mem main_c_26 (by decide),
   writes_sub_of_mem main_v93 (by decide),
   writes_sub_of_mem main_v94 (by decide),
   writes_sub_of_mem main_v95 (by decide),
   writes_sub_of_mem main_v96 (by decide),
   writes_sub_of_mem main_v97 (by decide),
   writes_sub_of_mem main_c_27 (by decide),
   writes_sub_of_mem main_v98 (by decide),
   writes_sub_of_mem main_v99 (by decide),
   writes_sub_of_mem main_c_28 (by decide),
   writes_sub_of_mem main_v100 (by decide),
   writes_sub_of_mem main_v101 (by decide),
   writes_sub_of_mem main_v102 (by decide),
   writes_sub_of_mem main_v103 (by decide),
   writes_sub_of_mem main_v104 (by decide),
   writes_sub_of_mem main_v105 (by decide)⟩

/-- A buffer the stretch does not write keeps its contents. -/
theorem S6_frame (V : Valuation τ sig (Elt Ideal)) {r : Ref sig .tc} (hr : r ∉ W6) :
    after (S6 (F := Ideal)) V (Proc.devRef (τ := τ) .tc r) = V (Proc.devRef .tc r) :=
  after_of_writes_sub S6 V S6_writes hr

end Cert.ReferenceIdeal.RefRun

end
-- ==== Proof.RefS7.lean ====
/-
  The reference's last stretch: the third aggregation and the sum per graph.

  The aggregation of the third product, and the rows of the result added into the row of each node's graph.
  The stretch is stated for arbitrary contents of the buffers it starts from: what its result buffer holds afterwards
  is the specification's function of what the buffers it reads held before, and a buffer it does not write holds
  what it held.
-/
import proofs.«104968_j30657476559416_2_alg».proof.Proof.RefBase

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

set_option Elab.async false

section
variable {F : FTy → Type} [FloatOps F]
/-- The stretch's 20 operations, in order. -/
abbrev S7 : List (HloOp τ sig (Elt F)) :=
  [ StableHlo.unary main_v105 main_v106 (broadcastInDim S740000x1 ![0] bcast_S740000_S740000x1_0 : (⟨S740000, .f32⟩ : BufTy).Contents (Elt F) → (⟨S740000x1, .f32⟩ : BufTy).Contents (Elt F)),
    StableHlo.nullary main_c_29 (constantI S_ 32 0#32),
    StableHlo.unary main_c_29 main_v107 (broadcastInDim S740000 ![] bcast_S_S740000 : (⟨S_, .i32⟩ : BufTy).Contents (Elt F) → (⟨S740000, .i32⟩ : BufTy).Contents (Elt F)),
    StableHlo.binary main_v3 main_v107 main_v108 (cmpi .slt : (⟨S740000, .i32⟩ : BufTy).Contents (Elt F) → (⟨S740000, .i32⟩ : BufTy).Contents (Elt F) → (⟨S740000, .i1⟩ : BufTy).Contents (Elt F)),
    StableHlo.nullary main_c_30 (constantI S_ 32 100000#32),
    StableHlo.unary main_c_30 main_v109 (broadcastInDim S740000 ![] bcast_S_S740000 : (⟨S_, .i32⟩ : BufTy).Contents (Elt F) → (⟨S740000, .i32⟩ : BufTy).Contents (Elt F)),
    StableHlo.binary main_v3 main_v109 main_v110 (addi : (⟨S740000, .i32⟩ : BufTy).Contents (Elt F) → (⟨S740000, .i32⟩ : BufTy).Contents (Elt F) → (⟨S740000, .i32⟩ : BufTy).Contents (Elt F)),
    StableHlo.ternary main_v108 main_v110 main_v3 main_v111 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v111 main_v112 (broadcastInDim S740000x1 ![0] bcast_S740000_S740000x1_0 : (⟨S740000, .i32⟩ : BufTy).Contents (Elt F) → (⟨S740000x1, .i32⟩ : BufTy).Contents (Elt F)),
    StableHlo.binary main_v82 main_v112 main_v113 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v106 main_v114 (broadcastInDim S740000x128 ![0, 1] bcast_S740000x1_S740000x128_0_1 : (⟨S740000x1, .f32⟩ : BufTy).Contents (Elt F) → (⟨S740000x128, .f32⟩ : BufTy).Contents (Elt F)),
    StableHlo.binary main_v114 main_v113 main_v115 (mulf : (⟨S740000x128, .f32⟩ : BufTy).Contents (Elt F) → (⟨S740000x128, .f32⟩ : BufTy).Contents (Elt F) → (⟨S740000x128, .f32⟩ : BufTy).Contents (Elt F)),
    StableHlo.nullary main_cst_31 (constant S_ .f32 0x00000000#32),
    StableHlo.unary main_cst_31 main_v116 (broadcastInDim S100000x128 ![] bcast_S_S100000x128 : (⟨S_, .f32⟩ : BufTy).Contents (Elt F) → (⟨S100000x128, .f32⟩ : BufTy).Contents (Elt F)),
    StableHlo.unary main_v6 main_v117 (broadcastInDim S740000x1 ![0] bcast_S740000_S740000x1_0 : (⟨S740000, .i32⟩ : BufTy).Contents (Elt F) → (⟨S740000x1, .i32⟩ : BufTy).Contents (Elt F)),
    StableHlo.ternary main_v116 main_v117 main_v115 main_v118 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.nullary main_cst_32 (constant S_ .f32 0x00000000#32),
    StableHlo.unary main_cst_32 main_v119 (broadcastInDim S512x128 ![] bcast_S_S512x128 : (⟨S_, .f32⟩ : BufTy).Contents (Elt F) → (⟨S512x128, .f32⟩ : BufTy).Contents (Elt F)),
    StableHlo.unary main_arg2 main_v120 (broadcastInDim S100000x1 ![0] bcast_S100000_S100000x1_0 : (⟨S100000, .i32⟩ : BufTy).Contents (Elt F) → (⟨S100000x1, .i32⟩ : BufTy).Contents (Elt F)),
    StableHlo.ternary main_v119 main_v120 main_v118 main_v121 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)) ]
end

/-- Every reference the stretch writes. -/
abbrev W7 : List (Ref sig .tc) :=
  [main_v106, main_c_29, main_v107, main_v108, main_c_30, main_v109, main_v110, main_v111, main_v112, main_v113, main_v114, main_v115, main_cst_31, main_v116, main_v117, main_v118, main_cst_32, main_v119, main_v120, main_v121]

set_option maxRecDepth 8192 in
set_option maxHeartbeats 1000000 in
/-- What the stretch leaves in the buffer, over what it read. -/
theorem S7_v121 (V : Valuation τ sig (Elt Ideal)) :
    after (S7 (F := Ideal)) V (main_v121 : DevRef τ sig) = Cert.Spec.pool specFacts (V (main_arg2 : DevRef τ sig)) (Cert.Spec.aggOf specFacts (V (main_v105 : DevRef τ sig)) (V (main_v3 : DevRef τ sig)) (V (main_v6 : DevRef τ sig)) (V (main_v82 : DevRef τ sig))) := by
  after_results_simp
  rfl

/-- Each operation writes one of the listed references. -/
theorem S7_writes : (S7 : List (HloOp τ sig (Elt Ideal))).Forall
    fun op => op.writes ⊆ (W7.map (Proc.devRef (τ := τ) .tc)).toFinset :=
  ⟨writes_sub_of_mem main_v106 (by decide),
   writes_sub_of_mem main_c_29 (by decide),
   writes_sub_of_mem main_v107 (by decide),
   writes_sub_of_mem main_v108 (by decide),
   writes_sub_of_mem main_c_30 (by decide),
   writes_sub_of_mem main_v109 (by decide),
   writes_sub_of_mem main_v110 (by decide),
   writes_sub_of_mem main_v111 (by decide),
   writes_sub_of_mem main_v112 (by decide),
   writes_sub_of_mem main_v113 (by decide),
   writes_sub_of_mem main_v114 (by decide),
   writes_sub_of_mem main_v115 (by decide),
   writes_sub_of_mem main_cst_31 (by decide),
   writes_sub_of_mem main_v116 (by decide),
   writes_sub_of_mem main_v117 (by decide),
   writes_sub_of_mem main_v118 (by decide),
   writes_sub_of_mem main_cst_32 (by decide),
   writes_sub_of_mem main_v119 (by decide),
   writes_sub_of_mem main_v120 (by decide),
   writes_sub_of_mem main_v121 (by decide)⟩

/-- A buffer the stretch does not write keeps its contents. -/
theorem S7_frame (V : Valuation τ sig (Elt Ideal)) {r : Ref sig .tc} (hr : r ∉ W7) :
    after (S7 (F := Ideal)) V (Proc.devRef (τ := τ) .tc r) = V (Proc.devRef .tc r) :=
  after_of_writes_sub S7 V S7_writes hr

end Cert.ReferenceIdeal.RefRun

end
-- ==== Proof.RefRun.lean ====
/-
  The run of the reference program, read back as the specification.

  The program is the straight line of its three windows' operations; that line is also the seven stretches run one
  after the other, and the contents after a concatenation are the contents after the second part taken from those
  after the first.  Reading the result buffer backwards through the stretches — each stretch's result over what it
  read, every buffer it does not write unchanged — gives: the sum per graph of the third aggregation, of the third
  product of the leaky rectifier of the second aggregation, of the second product of the first aggregation, of the
  first product of the features; every aggregation over the weights, sources and targets of the one edge list.  That
  is the specification's network at the argument buffers' launch contents.  No operation writes an argument buffer.
-/
import proofs.«104968_j30657476559416_2_alg».proof.Proof.RefOps0
import proofs.«104968_j30657476559416_2_alg».proof.Proof.RefOps1
import proofs.«104968_j30657476559416_2_alg».proof.Proof.RefOps2
import proofs.«104968_j30657476559416_2_alg».proof.Proof.RefS1
import proofs.«104968_j30657476559416_2_alg».proof.Proof.RefS2
import proofs.«104968_j30657476559416_2_alg».proof.Proof.RefS3
import proofs.«104968_j30657476559416_2_alg».proof.Proof.RefS4
import proofs.«104968_j30657476559416_2_alg».proof.Proof.RefS5
import proofs.«104968_j30657476559416_2_alg».proof.Proof.RefS6
import proofs.«104968_j30657476559416_2_alg».proof.Proof.RefS7
import proofs.«104968_j30657476559416_2_alg».proof.Proof.LibAfterAppend

set_option synthInstance.maxSize 4096

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

set_option Elab.async false

/-- The program's operations, in order: the three windows'. -/
abbrev ops : List (HloOp τ sig (Elt Ideal)) := ops0 ++ (ops1 ++ ops2)

/-- @main is that straight line. -/
theorem main_eq (c : Dev nD) : main (F := Ideal) c = seq ops := by
  show main (F := Ideal) c = seq (ops0 ++ (ops1 ++ ops2))
  rw [seq_append, seq_append, ← main_part0_eq c, ← main_part1_eq c, ← main_part2_eq c]
  rfl

/-- Every operation touches buffers of the tensor core only. -/
theorem ops_sub : ops.Forall fun op => op.bufs ⊆ tcRefs τ sig :=
  List.forall_iff_forall_mem.mpr fun op hop => by
    rcases List.mem_append.mp hop with h0 | h12
    · exact List.forall_iff_forall_mem.mp ops0_sub op h0
    · rcases List.mem_append.mp h12 with h1 | h2
      · exact List.forall_iff_forall_mem.mp ops1_sub op h1
      · exact List.forall_iff_forall_mem.mp ops2_sub op h2

/-- Every operation determines its result. -/
theorem ops_fresh : ∀ op ∈ ops, op.fresh = ∅ := fun op hop => by
  rcases List.mem_append.mp hop with h0 | h12
  · exact ops0_fresh op h0
  · rcases List.mem_append.mp h12 with h1 | h2
    · exact ops1_fresh op h1
    · exact ops2_fresh op h2

/-- The same line, cut into the seven stretches: an operation of a called function's body, stated over references that
    carry their value's type, is the operation over the buffers themselves. -/
theorem ops_eq : ops = S1 ++ (S2 ++ (S3 ++ (S4 ++ (S5 ++ (S6 ++ S7))))) := rfl

set_option maxRecDepth 4096 in
/-- The result buffer after the whole line is the specification's network at the argument buffers' contents. -/
theorem out_eq (V : Valuation τ sig (Elt Ideal)) :
    after ops V (main_v121 : DevRef τ sig)
      = Cert.Spec.out specFacts (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_eq]
  simp only [Cert.Lib.after_append]
  rw [S7_v121]
  rw [S6_v105, S6_frame _ (r := main_arg2) (by decide), S6_frame _ (r := main_v3) (by decide), S6_frame _ (r := main_v6) (by decide), S6_frame _ (r := main_v82) (by decide)]
  rw [S5_v82, S5_frame _ (r := main_arg2) (by decide), S5_frame _ (r := main_v3) (by decide), S5_frame _ (r := main_v6) (by decide)]
  rw [S4_v67, S4_frame _ (r := main_arg2) (by decide), S4_frame _ (r := main_arg5) (by decide), S4_frame _ (r := main_v3) (by decide), S4_frame _ (r := main_v6) (by decide), S4_frame _ (r := main_v44) (by decide)]
  rw [S3_v44, S3_frame _ (r := main_arg2) (by decide), S3_frame _ (r := main_arg5) (by decide), S3_frame _ (r := main_v3) (by decide), S3_frame _ (r := main_v6) (by decide)]
  rw [S2_v30, S2_frame _ (r := main_arg2) (by decide), S2_frame _ (r := main_arg4) (by decide), S2_frame _ (r := main_arg5) (by decide), S2_frame _ (r := main_v3) (by decide), S2_frame _ (r := main_v6) (by decide), S2_frame _ (r := main_v7) (by decide)]
  rw [S1_v3, S1_v6, S1_v7, S1_frame _ (r := main_arg2) (by decide), S1_frame _ (r := main_arg4) (by decide), S1_frame _ (r := main_arg5) (by decide)]
  rw [agg_eq, agg_eq, agg_eq]
  rfl

/-- A buffer no stretch writes holds after the whole line what it held before. -/
theorem keep_eq (V : Valuation τ sig (Elt Ideal)) {r : Ref sig .tc} (h1 : r ∉ W1) (h2 : r ∉ W2) (h3 : r ∉ W3) (h4 : r ∉ W4)
    (h5 : r ∉ W5) (h6 : r ∉ W6) (h7 : r ∉ W7) :
    after ops V (Proc.devRef (τ := τ) .tc r) = V (Proc.devRef .tc r) := by
  rw [ops_eq]
  simp only [Cert.Lib.after_append]
  rw [S7_frame _ h7, S6_frame _ h6, S5_frame _ h5, S4_frame _ h4, S3_frame _ h3, S2_frame _ h2, S1_frame _ h1]

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates with the result
    buffer at the specification's network of the argument buffers' launch contents, and the argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v121) = Cert.Spec.out specFacts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c main_v121).trans (out_eq (launchContents m c)),
      (h c main_arg0).trans (keep_eq (launchContents m c) (by decide) (by decide) (by decide) (by decide) (by decide) (by decide) (by decide)),
      (h c main_arg1).trans (keep_eq (launchContents m c) (by decide) (by decide) (by decide) (by decide) (by decide) (by decide) (by decide)),
      (h c main_arg2).trans (keep_eq (launchContents m c) (by decide) (by decide) (by decide) (by decide) (by decide) (by decide) (by decide)),
      (h c main_arg3).trans (keep_eq (launchContents m c) (by decide) (by decide) (by decide) (by decide) (by decide) (by decide) (by decide)),
      (h c main_arg4).trans (keep_eq (launchContents m c) (by decide) (by decide) (by decide) (by decide) (by decide) (by decide) (by decide)),
      (h c main_arg5).trans (keep_eq (launchContents m c) (by decide) (by decide) (by decide) (by decide) (by decide) (by decide) (by decide))⟩)
    (run_seq scopedRefs_eq scopedSems_eq (defs (F := Ideal)) main (fun _ => ops) main_eq (fun _ => ops_sub) m ρ (fun _ => ops_fresh))

end Cert.ReferenceIdeal.RefRun

end
-- ==== Proof.lean ====
/-
  A three-layer graph convolution network with a sum per graph: the kernel against its reference.

  Both programs take node features x [100000, 128], an edge list [2, 640000], a graph id per node and three weight
  matrices [128, 128].  Every node gets a self loop; an edge from u to v carries the weight
  deg(u)^(-1/2) · deg(v)^(-1/2), deg the number of edges into a node.  A layer multiplies the features by a weight
  matrix and adds, into every node, the weighted rows of the sources of its incoming edges; the third layer is entered
  through leaky_relu; the result adds the node rows up by graph.  That function of the six arguments is
  `Cert.Spec.out`.

  The reference computes it with one matrix product per layer on the host.  The kernel computes each product in a
  region of ten grid points, each multiplying 10000 rows of the features (for the third layer, of their leaky_relu) by
  the whole weight matrix in bf16 with an f32 accumulator, and leaves the gathers and the sums over edges to the host;
  it computes the edge weights once where the reference computes them per layer.  On the extended reals a change of
  float format is the identity and a product into the zero accumulator is the plain sum over the 128 columns, so each
  block is the corresponding block of the host's product and the ten blocks cover the array; choosing between t and
  t/100 by t > 0 (the kernel) or by t ≥ 0 (the reference) is the same choice, both being 0 at 0; the edge weights
  computed once or three times are one term.  So both results are `Cert.Spec.out` of the arguments.  No step uses that
  the inputs are finite.

  The two word-level and idealized kernel frames are the generated ones; the reference's frame is its run with the
  result dropped; the idealization rewrote nothing, so `preserves` is trivial.
-/
import proofs.«104968_j30657476559416_2_alg».proof.Defs
import proofs.«104968_j30657476559416_2_alg».proof.Proof.Gen.Kernel
import proofs.«104968_j30657476559416_2_alg».proof.Proof.Gen.Kernel.Frame
import proofs.«104968_j30657476559416_2_alg».proof.Proof.Gen.KernelIdeal
import proofs.«104968_j30657476559416_2_alg».proof.Proof.Gen.KernelIdeal.Frame
import proofs.«104968_j30657476559416_2_alg».proof.Proof.Gen.ReferenceIdeal
import proofs.«104968_j30657476559416_2_alg».proof.Proof.Gen.Pre_finite_inputs
import proofs.«104968_j30657476559416_2_alg».proof.Proof.Spec
import proofs.«104968_j30657476559416_2_alg».proof.Proof.KernelRun
import proofs.«104968_j30657476559416_2_alg».proof.Proof.KernelValue
import proofs.«104968_j30657476559416_2_alg».proof.Proof.RefRun
import Idealize.ShloMosaic.Adequacy
import Idealize.ShloMosaic.Init

noncomputable section

namespace Cert.Proof

open Idealize.ShloMosaic Idealize.ShloMosaic.TcCoe Idealize.SL.Sem

/-- The shape side conditions of the specification's operations: the reference states every one of them. -/
theorem specFacts : Cert.Spec.Facts := Cert.ReferenceIdeal.RefRun.specFacts

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- Both idealized programs end with the result buffer at the specification's network of the arguments: the kernel
    by following its seven segments, the reference by its run; the arguments agree. -/
theorem algebraic : Cert.algebraic_KernelIdeal_ReferenceIdeal := by
  intro m ρ m' ρ' _ hagree
  refine ⟨fun c => Cert.Spec.out specFacts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.value m ρ specFacts c), (h c).2⟩)
      (Cert.KernelIdeal.RunValue.run_value (F := Ideal) m ρ)
  · refine (θ_run Cert.ReferenceIdeal.defs _ _).mono (fun _ h c => ⟨(h c).1.trans ?_, (h c).2⟩) (Cert.ReferenceIdeal.RefRun.run m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
